-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x3 : Shape := ⟨2, ![200000, 3]⟩
abbrev S200000x64 : Shape := ⟨2, ![200000, 64]⟩
abbrev S9x150000 : Shape := ⟨2, ![9, 150000]⟩
abbrev S9x64x64 : Shape := ⟨3, ![9, 64, 64]⟩
abbrev S64 : Shape := ⟨1, ![64]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S9x64x64 : S_.BroadcastsInDim S9x64x64 (![] : Fin 0 → Fin S9x64x64.rank)
  reducesTo_S9x64x64_S_d0_1_2 : S9x64x64.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : IVec S200000x3 32) (main_arg1 : FVec F S200000x64 .f32) (main_arg2 : IVec S9x150000 32) (main_arg3 : IVec S9x150000 32) (main_arg4 : FVec F S9x64x64 .f32) (main_arg5 : FVec F S64 .f32) (main_arg6 : FVec F S64 .f32) (main_arg7 : FVec F S64 .f32) : IVec S_ 1 :=
  let main_v0 : FVec F S200000x64 .f32 := Host.absf main_arg1
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S9x64x64 .f32 := Host.absf main_arg4
  let main_cst_0 : FVec F S_ .f32 := constant S_ .f32 0x7F800000#32
  let main_v5 : FVec F S9x64x64 .f32 := broadcastInDim S9x64x64 ![] bcast_S_S9x64x64 main_cst_0
  let main_v6 : IVec S9x64x64 1 := cmpf .olt main_v4 main_v5
  let main_c_1 : IVec S_ 1 := constantI S_ 1 1#1
  let main_v7 : IVec S_ 1 := (fun x v => Host.reduce IntOp.andi x v reducesTo_S9x64x64_S_d0_1_2 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg7 main_v13 main_v16
-- ==== Kernel.lean ====
abbrev S200000x3 : Shape := ⟨2, ![200000, 3]⟩
abbrev S200000x64 : Shape := ⟨2, ![200000, 64]⟩
abbrev S9x150000 : Shape := ⟨2, ![9, 150000]⟩
abbrev S9x64x64 : Shape := ⟨3, ![9, 64, 64]⟩
abbrev S64 : Shape := ⟨1, ![64]⟩
abbrev S_ : Shape := ⟨0, ![]⟩
abbrev S9x150000x1 : Shape := ⟨3, ![9, 150000, 1]⟩
abbrev S9x150000x64 : Shape := ⟨3, ![9, 150000, 64]⟩
abbrev S1x10000x64 : Shape := ⟨3, ![1, 10000, 64]⟩
abbrev S1x64x64 : Shape := ⟨3, ![1, 64, 64]⟩
abbrev S10000x64 : Shape := ⟨2, ![10000, 64]⟩
abbrev S64x64 : Shape := ⟨2, ![64, 64]⟩
abbrev S1350000 : Shape := ⟨1, ![1350000]⟩
abbrev S1350000x64 : Shape := ⟨2, ![1350000, 64]⟩
abbrev S1350000x1 : Shape := ⟨2, ![1350000, 1]⟩
abbrev S1x64 : Shape := ⟨2, ![1, 64]⟩

abbrev nBuf : Space → Nat
  | .hbm => 57
  | .vmem => 19
  | .smem => 0
  | _ => 0

abbrev bufTy : (tb : Table) → Fin (tcTables nBuf tb) → BufTy
  | .hbm, ⟨0, _⟩ => ⟨S200000x3, .i32⟩
  | .hbm, ⟨1, _⟩ => ⟨S200000x64, .f32⟩
  | .hbm, ⟨2, _⟩ => ⟨S9x150000, .i32⟩
  | .hbm, ⟨3, _⟩ => ⟨S9x150000, .i32⟩
  | .hbm, ⟨4, _⟩ => ⟨S9x64x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S200000x64, .bf16⟩
  | .hbm, ⟨9, _⟩ => ⟨S9x64x64, .bf16⟩
  | .hbm, ⟨10, _⟩ => ⟨S_, .i32⟩
  | .hbm, ⟨11, _⟩ => ⟨S9x150000, .i32⟩
  | .hbm, ⟨12, _⟩ => ⟨S9x150000, .i1⟩
  | .hbm, ⟨13, _⟩ => ⟨S_, .i32⟩
  | .hbm, ⟨14, _⟩ => ⟨S9x150000, .i32⟩
  | .hbm, ⟨15, _⟩ => ⟨S9x150000, .i32⟩
  | .hbm, ⟨16, _⟩ => ⟨S9x150000, .i32⟩
  | .hbm, ⟨17, _⟩ => ⟨S9x150000x1, .i32⟩
  | .hbm, ⟨18, _⟩ => ⟨S9x150000x64, .bf16⟩
  | .hbm, ⟨19, _⟩ => ⟨S9x150000x64, .f32⟩
  | .hbm, ⟨20, _⟩ => ⟨S_, .f32⟩
  | .hbm, ⟨21, _⟩ => ⟨S200000x64, .f32⟩
  | .hbm, ⟨22, _⟩ => ⟨S1350000, .i32⟩
  | .hbm, ⟨23, _⟩ => ⟨S1350000x64, .f32⟩
  | .hbm, ⟨24, _⟩ => ⟨S_, .i32⟩
  | .hbm, ⟨25, _⟩ => ⟨S1350000, .i32⟩
  | .hbm, ⟨26, _⟩ => ⟨S1350000, .i1⟩
  | .hbm, ⟨27, _⟩ => ⟨S_, .i32⟩
  | .hbm, ⟨28, _⟩ => ⟨S1350000, .i32⟩
  | .hbm, ⟨29, _⟩ => ⟨S1350000, .i32⟩
  | .hbm, ⟨30, _⟩ => ⟨S1350000, .i32⟩
  | .hbm, ⟨31, _⟩ => ⟨S1350000x1, .i32⟩
  | .hbm, ⟨32, _⟩ => ⟨S200000x64, .f32⟩
  | .hbm, ⟨33, _⟩ => ⟨S1x64, .f32⟩
  | .hbm, ⟨34, _⟩ => ⟨S200000x64, .f32⟩
  | .hbm, ⟨35, _⟩ => ⟨S1x64, .f32⟩
  | .hbm, ⟨36, _⟩ => ⟨S1x64, .f32⟩
  | .hbm, ⟨37, _⟩ => ⟨S64, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S64, .f32⟩
  | .hbm, ⟨42, _⟩ => ⟨S_, .f32⟩
  | .hbm, ⟨43, _⟩ => ⟨S64, .f32⟩
  | .hbm, ⟨44, _⟩ => ⟨S64, .f32⟩
  | .hbm, ⟨45, _⟩ => ⟨S64, .f32⟩
  | .hbm, ⟨46, _⟩ => ⟨S64, .f32⟩
  | .hbm, ⟨47, _⟩ => ⟨S_, .f32⟩
  | .hbm, ⟨48, _⟩ => ⟨S64, .f32⟩
  | .hbm, ⟨49, _⟩ => ⟨S64, .f32⟩
  | .hbm, ⟨50, _⟩ => ⟨S64, .f32⟩
  | .hbm, ⟨51, _⟩ => ⟨S64, .f32⟩
  | .hbm, ⟨52, _⟩ => ⟨S64, .f32⟩
  | .hbm, ⟨53, _⟩ => ⟨S64, .f32⟩
  | .hbm, ⟨54, _⟩ => ⟨S1x64, .f32⟩
  | .hbm, ⟨55, _⟩ => ⟨S1x64, .f32⟩
  | .hbm, ⟨56, _⟩ => ⟨S200000x64, .f32⟩
  | .local _ .vmem, ⟨0, _⟩ => ⟨S1x10000x64, .bf16⟩
  | .local _ .vmem, ⟨1, _⟩ => ⟨S1x10000x64, .bf16⟩
  | .local _ .vmem, ⟨2, _⟩ => ⟨S1x64x64, .bf16⟩
  | .local _ .vmem, ⟨3, _⟩ => ⟨S1x64x64, .bf16⟩
  | .local _ .vmem, ⟨4, _⟩ => ⟨S1x10000x64, .f32⟩
  | .local _ .vmem, ⟨5, _⟩ => ⟨S1x10000x64, .f32⟩
  | .local _ .vmem, ⟨6, _⟩ => ⟨S10000x64, .f32⟩
  | .local _ .vmem, ⟨7, _⟩ => ⟨S10000x64, .f32⟩
  | .local _ .vmem, ⟨8, _⟩ => ⟨S1x64, .f32⟩
  | .local _ .vmem, ⟨9, _⟩ => ⟨S10000x64, .f32⟩
  | .local _ .vmem, ⟨10, _⟩ => ⟨S10000x64, .f32⟩
  | .local _ .vmem, ⟨11, _⟩ => ⟨S1x64, .f32⟩
  | .local _ .vmem, ⟨12, _⟩ => ⟨S1x64, .f32⟩
  | .local _ .vmem, ⟨13, _⟩ => ⟨S10000x64, .f32⟩
  | .local _ .vmem, ⟨14, _⟩ => ⟨S10000x64, .f32⟩
  | .local _ .vmem, ⟨15, _⟩ => ⟨S1x64, .f32⟩
  | .local _ .vmem, ⟨16, _⟩ => ⟨S1x64, .f32⟩
  | .local _ .vmem, ⟨17, _⟩ => ⟨S10000x64, .f32⟩
  | .local _ .vmem, ⟨18, _⟩ => ⟨S10000x64, .f32⟩
  | _, _ => ⟨S200000x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21_0 : Ref sig .tc := ⟨.hbm, 34, rfl⟩
abbrev main_v21_1 : Ref sig .tc := ⟨.hbm, 35, rfl⟩
abbrev main_v21_2 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem4_0 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨2, ![9, 15], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x10000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  bcast_S_S9x150000 : S_.BroadcastsInDim S9x150000 (![] : Fin 0 → Fin S9x150000.rank)
  bcast_S9x150000_S9x150000x1_0_1 : S9x150000.BroadcastsInDim S9x150000x1 (![0, 1] : Fin 2 → Fin S9x150000x1.rank)
  inb_S1x10000x64_S1x10000x64_0_0_0 : ∀ a, (![0, 0, 0] : Fin 3 → Nat) a + S1x10000x64.size a ≤ S1x10000x64.size a
  h_S1x10000x64 : 0 < S1x10000x64.numel
  shapeCasts_S1x10000x64_S10000x64 : S1x10000x64.ShapeCasts S10000x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S10000x64_S1x10000x64 : S10000x64.ShapeCasts S1x10000x64
  bcast_S_S200000x64 : S_.BroadcastsInDim S200000x64 (![] : Fin 0 → Fin S200000x64.rank)
  shapeCasts_S9x150000_S1350000 : S9x150000.ShapeCasts S1350000
  shapeCasts_S9x150000x64_S1350000x64 : S9x150000x64.ShapeCasts S1350000x64
  bcast_S_S1350000 : S_.BroadcastsInDim S1350000 (![] : Fin 0 → Fin S1350000.rank)
  bcast_S1350000_S1350000x1_0 : S1350000.BroadcastsInDim S1350000x1 (![0] : Fin 1 → Fin S1350000x1.rank)
  shapeCasts_S64_S1x64 : S64.ShapeCasts S1x64
  inb_S1x64_S1x64_0_0 : ∀ a, (![0, 0] : Fin 2 → Nat) a + S1x64.size a ≤ S1x64.size a
  h_S1x64 : 0 < S1x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  shapeCasts_S1x64_S1x64 : S1x64.ShapeCasts S1x64
  broadcasts_S1x64_S10000x64 : S1x64.Broadcasts S10000x64
  reduces_S10000x64_S64 : S10000x64.Reduces [0] S64
  shapeCasts_S1x64_S64 : S1x64.ShapeCasts S64
  bcast_S_S64 : S_.BroadcastsInDim S64 (![] : Fin 0 → Fin S64.rank)
  gather_S200000x64_S9x150000x1_S9x150000x64_2_0_n_n_0_2_164_wf : GatherDims.WF S200000x64 S9x150000x1 S9x150000x64 [2] [0] [] [0] [] 2 ![1, 64]
  dot_S10000x64_S64x64_S10000x64_1_0_0_1_n_n_wf : DotDims.WF S10000x64 S64x64 S10000x64 [1] [0] [0] [1] [] []
  scatter_S200000x64_S1350000x1_S1350000x64_1_0_0_1_wf : ScatterDims.WF S200000x64 S1350000x1 S1350000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x10000x64.size a ≤ S9x150000x64.size a
  hwx0_0 : ∀ i : grid0.Coords, EltTy.bits .bf16 = 32 ∨ (Rect.block (s := S9x150000x64) S1x10000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S9x64x64.size a
  hwx0_1 : ∀ i : grid0.Coords, EltTy.bits .bf16 = 32 ∨ (Rect.block (s := S9x64x64) S1x64x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x10000x64.size a ≤ S9x150000x64.size a
  hwx0_2 : ∀ i : grid0.Coords, EltTy.bits .f32 = 32 ∨ (Rect.block (s := S9x150000x64) S1x10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S200000x64.size a
  hwx1_0 : ∀ i : grid1.Coords, EltTy.bits .f32 = 32 ∨ (Rect.block (s := S200000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S200000x64.size a
  hwx1_2 : ∀ i : grid1.Coords, EltTy.bits .f32 = 32 ∨ (Rect.block (s := S200000x64) S10000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S200000x64.size a
  hwx2_0 : ∀ i : grid2.Coords, EltTy.bits .f32 = 32 ∨ (Rect.block (s := S200000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S200000x64.size a
  hwx2_3 : ∀ i : grid2.Coords, EltTy.bits .f32 = 32 ∨ (Rect.block (s := S200000x64) S10000x64.size (cc2_transform_3 i) (hinb2_3 i)).WholeWords (EltTy.packing .f32)

variable [Facts₀]

def gather_S200000x64_S9x150000x1_S9x150000x64_2_0_n_n_0_2_164 : GatherDims S200000x64 S9x150000x1 S9x150000x64 where
  offsetDims := [2]
  collapsedSliceDims := [0]
  operandBatchingDims := []
  startIndicesBatchingDims := []
  startIndexMap := [0]
  indexVectorDim := 2
  sliceSizes := ![1, 64]
  wf := gather_S200000x64_S9x150000x1_S9x150000x64_2_0_n_n_0_2_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S200000x64_S1350000x1_S1350000x64_1_0_0_1 : ScatterDims S200000x64 S1350000x1 S1350000x64 where
  updateWindowDims := [1]
  insertedWindowDims := [0]
  scatterDimsToOperandDims := [0]
  indexVectorDim := 1
  wf := scatter_S200000x64_S1350000x1_S1350000x64_1_0_0_1_wf

abbrev win0_0 : Pipeline.Window sig grid0 :=
  Pipeline.Window.ofSpec (Memref.whole main_v8) S1x10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21_0) S10000x64.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21_1) S1x64.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21_2) S1x64.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v21_0) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v37) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S200000x3 : Shape := ⟨2, ![200000, 3]⟩
abbrev S200000x64 : Shape := ⟨2, ![200000, 64]⟩
abbrev S9x150000 : Shape := ⟨2, ![9, 150000]⟩
abbrev S9x64x64 : Shape := ⟨3, ![9, 64, 64]⟩
abbrev S64 : Shape := ⟨1, ![64]⟩
abbrev S_ : Shape := ⟨0, ![]⟩
abbrev S9x150000x1 : Shape := ⟨3, ![9, 150000, 1]⟩
abbrev S9x150000x64 : Shape := ⟨3, ![9, 150000, 64]⟩
abbrev S1350000 : Shape := ⟨1, ![1350000]⟩
abbrev S1350000x64 : Shape := ⟨2, ![1350000, 64]⟩
abbrev S1350000x1 : Shape := ⟨2, ![1350000, 1]⟩
abbrev S1x64 : Shape := ⟨2, ![1, 64]⟩

abbrev nBuf : Space → Nat
  | .hbm => 67
  | .vmem => 0
  | .smem => 0
  | _ => 0

abbrev bufTy : (tb : Table) → Fin (tcTables nBuf tb) → BufTy
  | .hbm, ⟨0, _⟩ => ⟨S200000x3, .i32⟩
  | .hbm, ⟨1, _⟩ => ⟨S200000x64, .f32⟩
  | .hbm, ⟨2, _⟩ => ⟨S9x150000, .i32⟩
  | .hbm, ⟨3, _⟩ => ⟨S9x150000, .i32⟩
  | .hbm, ⟨4, _⟩ => ⟨S9x64x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S_, .i32⟩
  | .hbm, ⟨9, _⟩ => ⟨S9x150000, .i32⟩
  | .hbm, ⟨10, _⟩ => ⟨S9x150000, .i1⟩
  | .hbm, ⟨11, _⟩ => ⟨S_, .i32⟩
  | .hbm, ⟨12, _⟩ => ⟨S9x150000, .i32⟩
  | .hbm, ⟨13, _⟩ => ⟨S9x150000, .i32⟩
  | .hbm, ⟨14, _⟩ => ⟨S9x150000, .i32⟩
  | .hbm, ⟨15, _⟩ => ⟨S9x150000x1, .i32⟩
  | .hbm, ⟨16, _⟩ => ⟨S9x150000x64, .f32⟩
  | .hbm, ⟨17, _⟩ => ⟨S9x150000x64, .f32⟩
  | .hbm, ⟨18, _⟩ => ⟨S_, .f32⟩
  | .hbm, ⟨19, _⟩ => ⟨S200000x64, .f32⟩
  | .hbm, ⟨20, _⟩ => ⟨S1350000, .i32⟩
  | .hbm, ⟨21, _⟩ => ⟨S1350000x64, .f32⟩
  | .hbm, ⟨22, _⟩ => ⟨S_, .i32⟩
  | .hbm, ⟨23, _⟩ => ⟨S1350000, .i32⟩
  | .hbm, ⟨24, _⟩ => ⟨S1350000, .i1⟩
  | .hbm, ⟨25, _⟩ => ⟨S_, .i32⟩
  | .hbm, ⟨26, _⟩ => ⟨S1350000, .i32⟩
  | .hbm, ⟨27, _⟩ => ⟨S1350000, .i32⟩
  | .hbm, ⟨28, _⟩ => ⟨S1350000, .i32⟩
  | .hbm, ⟨29, _⟩ => ⟨S1350000x1, .i32⟩
  | .hbm, ⟨30, _⟩ => ⟨S200000x64, .f32⟩
  | .hbm, ⟨31, _⟩ => ⟨S1x64, .f32⟩
  | .hbm, ⟨32, _⟩ => ⟨S200000x64, .f32⟩
  | .hbm, ⟨33, _⟩ => ⟨S200000x64, .f32⟩
  | .hbm, ⟨34, _⟩ => ⟨S_, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S1x64, .f32⟩
  | .hbm, ⟨40, _⟩ => ⟨S200000x64, .f32⟩
  | .hbm, ⟨41, _⟩ => ⟨S200000x64, .f32⟩
  | .hbm, ⟨42, _⟩ => ⟨S200000x64, .f32⟩
  | .hbm, ⟨43, _⟩ => ⟨S_, .f32⟩
  | .hbm, ⟨44, _⟩ => ⟨S64, .f32⟩
  | .hbm, ⟨45, _⟩ => ⟨S_, .f32⟩
  | .hbm, ⟨46, _⟩ => ⟨S64, .f32⟩
  | .hbm, ⟨47, _⟩ => ⟨S64, .f32⟩
  | .hbm, ⟨48, _⟩ => ⟨S1x64, .f32⟩
  | .hbm, ⟨49, _⟩ => ⟨S200000x64, .f32⟩
  | .hbm, ⟨50, _⟩ => ⟨S200000x64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S64, .f32⟩
  | .hbm, ⟨55, _⟩ => ⟨S1x64, .f32⟩
  | .hbm, ⟨56, _⟩ => ⟨S200000x64, .f32⟩
  | .hbm, ⟨57, _⟩ => ⟨S200000x64, .f32⟩
  | .hbm, ⟨58, _⟩ => ⟨S1x64, .f32⟩
  | .hbm, ⟨59, _⟩ => ⟨S200000x64, .f32⟩
  | .hbm, ⟨60, _⟩ => ⟨S200000x64, .f32⟩
  | .hbm, ⟨61, _⟩ => ⟨S1x64, .f32⟩
  | .hbm, ⟨62, _⟩ => ⟨S200000x64, .f32⟩
  | .hbm, ⟨63, _⟩ => ⟨S200000x64, .f32⟩
  | .hbm, ⟨64, _⟩ => ⟨S_, .f32⟩
  | .hbm, ⟨65, _⟩ => ⟨S200000x64, .f32⟩
  | .hbm, ⟨66, _⟩ => ⟨S200000x64, .f32⟩
  | _, _ => ⟨S200000x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  bcast_S_S9x150000 : S_.BroadcastsInDim S9x150000 (![] : Fin 0 → Fin S9x150000.rank)
  bcast_S9x150000_S9x150000x1_0_1 : S9x150000.BroadcastsInDim S9x150000x1 (![0, 1] : Fin 2 → Fin S9x150000x1.rank)
  bcast_S_S200000x64 : S_.BroadcastsInDim S200000x64 (![] : Fin 0 → Fin S200000x64.rank)
  shapeCasts_S9x150000_S1350000 : S9x150000.ShapeCasts S1350000
  shapeCasts_S9x150000x64_S1350000x64 : S9x150000x64.ShapeCasts S1350000x64
  bcast_S_S1350000 : S_.BroadcastsInDim S1350000 (![] : Fin 0 → Fin S1350000.rank)
  bcast_S1350000_S1350000x1_0 : S1350000.BroadcastsInDim S1350000x1 (![0] : Fin 1 → Fin S1350000x1.rank)
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  reducesTo_S200000x64_S64_d0 : S200000x64.ReducesTo [0] S64
  h_S_ : 0 < S_.numel
  bcast_S_S64 : S_.BroadcastsInDim S64 (![] : Fin 0 → Fin S64.rank)
  gather_S200000x64_S9x150000x1_S9x150000x64_2_0_n_n_0_2_164_wf : GatherDims.WF S200000x64 S9x150000x1 S9x150000x64 [2] [0] [] [0] [] 2 ![1, 64]
  dot_S9x150000x64_S9x64x64_S9x150000x64_2_1_1_2_0_0_wf : DotDims.WF S9x150000x64 S9x64x64 S9x150000x64 [2] [1] [1] [2] [0] [0]
  scatter_S200000x64_S1350000x1_S1350000x64_1_0_0_1_wf : ScatterDims.WF S200000x64 S1350000x1 S1350000x64 [1] [0] [0] 1

variable [Facts₀]

def gather_S200000x64_S9x150000x1_S9x150000x64_2_0_n_n_0_2_164 : GatherDims S200000x64 S9x150000x1 S9x150000x64 where
  offsetDims := [2]
  collapsedSliceDims := [0]
  operandBatchingDims := []
  startIndicesBatchingDims := []
  startIndexMap := [0]
  indexVectorDim := 2
  sliceSizes := ![1, 64]
  wf := gather_S200000x64_S9x150000x1_S9x150000x64_2_0_n_n_0_2_164_wf
def dot_S9x150000x64_S9x64x64_S9x150000x64_2_1_1_2_0_0 : DotDims S9x150000x64 S9x64x64 S9x150000x64 where
  lhsContracting := [2]
  rhsContracting := [1]
  lhsNonContracting := [1]
  rhsNonContracting := [2]
  lhsBatch := [0]
  rhsBatch := [0]
  wf := dot_S9x150000x64_S9x64x64_S9x150000x64_2_1_1_2_0_0_wf
def scatter_S200000x64_S1350000x1_S1350000x64_1_0_0_1 : ScatterDims S200000x64 S1350000x1 S1350000x64 where
  updateWindowDims := [1]
  insertedWindowDims := [0]
  scatterDimsToOperandDims := [0]
  indexVectorDim := 1
  wf := scatter_S200000x64_S1350000x1_S1350000x64_1_0_0_1_wf

class Facts : Prop extends Facts₀ where

variable [Facts]
-- ==== Proof.KRun.lean ====
/-
  The idealized kernel's run with its result named.

  The program is three kernel regions among stretches of host operations. Its run passes through seven boundaries;
  at each the contents of every buffer are a fold from the launch memory: a stretch of host operations applies them in
  order, a region replaces its arrays by what its write-backs leave. Every weakly fair execution terminates without a
  fault in a state whose buffers hold the last boundary's contents `W6`; read at the arguments that is the launch
  memory, and read at the result buffer it is `W6` there, which the later modules compute.
-/
import proofs.«171181_j50354196578891_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v38) = W6 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v38 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.KRun

end
-- ==== Proof.LibRowForms.lean ====
/-
  General facts about arrays with a leading unit axis, read at an entry.

  * A [1, B, C] slab viewed as a [B, C] matrix reads, at (p, q), the slab at (0, p, q) (unslab_apply).
  * A [1, M] row viewed as a vector of length M reads, at p, the row at (0, p) (rowVec_apply).
  * A [1, N] row repeated down M rows reads, at (p, q), the row at (0, q) (rowBroadcast_apply).
  * A vector of length M viewed as a [1, M] row reads, at (0, p), the vector at p (vecRow_apply).
-/
import Idealize.ShloMosaic.Lib.ValueIdx
import Idealize.ShloMosaic.Lib.Pipeline.Value

noncomputable section

namespace Cert.Lib.RowForms

open Idealize.ShloMosaic Idealize.ShloMosaic.ValueIdx

variable {α : Type} {M N B C : Nat}

/-- A [1, B, C] slab viewed as a [B, C] matrix: entry (p, q) is entry (0, p, q). -/
theorem unslab_apply (v : (⟨3, ![1, B, C]⟩ : Shape).Idx → α) (h : (⟨3, ![1, B, C]⟩ : Shape).ShapeCasts ⟨2, ![B, C]⟩)
    (p : Fin B) (q : Fin C) : shapeCast ⟨2, ![B, C]⟩ v h (ix2 p q) = v (ix3 (0 : Fin 1) p q) :=
  shapeCast_apply v h (ix2 p q) (ix3 (0 : Fin 1) p q) (by
    rw [Shape.rowMajor_val_two, Shape.rowMajor_val_three]
    show (0 * B + p.val) * C + q.val = p.val * C + q.val
    rw [Nat.zero_mul, Nat.zero_add])

/-- A [1, M] row viewed as a vector of length M: entry p is entry (0, p). -/
theorem rowVec_apply (v : (⟨2, ![1, M]⟩ : Shape).Idx → α) (h : (⟨2, ![1, M]⟩ : Shape).ShapeCasts ⟨1, ![M]⟩)
    (p : Fin M) : shapeCast ⟨1, ![M]⟩ v h (ix1 p) = v (ix2 (0 : Fin 1) p) :=
  shapeCast_apply v h (ix1 p) (ix2 (0 : Fin 1) p) (by
    rw [Shape.rowMajor_val_one, Shape.rowMajor_val_two]
    show 0 * M + p.val = p.val
    rw [Nat.zero_mul, Nat.zero_add])

/-- A [1, N] row repeated down M rows: entry (p, q) is the row's entry (0, q). -/
theorem rowBroadcast_apply (v : (⟨2, ![1, N]⟩ : Shape).Idx → α) (h : (⟨2, ![1, N]⟩ : Shape).Broadcasts ⟨2, ![M, N]⟩)
    (p : Fin M) (q : Fin N) : broadcastTo ⟨2, ![M, N]⟩ v h (ix2 p q) = v (ix2 (0 : Fin 1) q) :=
  broadcastTo_apply v h (ix2 p q) (ix2 (0 : Fin 1) q) (fun a => match a with
    | ⟨0, _⟩ => by show 0 = if (1 : Nat) = 1 then 0 else p.val; rw [if_pos rfl]
    | ⟨1, _⟩ => by
        show q.val = if N = 1 then 0 else q.val
        split
        · have := q.isLt; omega
        · rfl)

/-- A vector of length M viewed as a [1, M] row: entry (0, p) is entry p. -/
theorem vecRow_apply (v : (⟨1, ![M]⟩ : Shape).Idx → α) (h : (⟨1, ![M]⟩ : Shape).ShapeCasts ⟨2, ![1, M]⟩)
    (p : Fin M) : shapeCast ⟨2, ![1, M]⟩ v h (ix2 (0 : Fin 1) p) = v (ix1 p) :=
  shapeCast_apply v h (ix2 (0 : Fin 1) p) (ix1 p) (by
    rw [Shape.rowMajor_val_one, Shape.rowMajor_val_two]
    show p.val = 0 * M + p.val
    rw [Nat.zero_mul, Nat.zero_add])

end Cert.Lib.RowForms

end
-- ==== Proof.LibLeadAxes.lean ====
/-
  Arrays that differ by a leading unit axis, or by a split of the leading axis, read at an entry.

  A shape cast keeps the row-major position of every entry.
  * A `B × C` matrix viewed as a `1 × B × C` slab reads, at `(0, p, q)`, the matrix at `(p, q)` (`slab_apply`).
  * A rank-three array re-read at rank four holds, at each index, the entry with the same row-major position
    (`three_four_apply`): splitting the leading axis `a·b` of an `(a·b) × c × d` array into `a × b` sends `(i, j, k, l)`
    to `(i·b + j, k, l)`.
-/
import Idealize.ShloMosaic.Lib.ValueIdx
import Idealize.ShloMosaic.Lib.Pipeline.Value

noncomputable section

namespace Cert.Lib.LeadAxes

open Idealize.ShloMosaic Idealize.ShloMosaic.ValueIdx

variable {α : Type}

/-- A `B × C` matrix viewed as a `1 × B × C` slab: entry `(0, p, q)` is entry `(p, q)`. -/
theorem slab_apply {B C : ℕ} (v : (⟨2, ![B, C]⟩ : Shape).Idx → α) (h : (⟨2, ![B, C]⟩ : Shape).ShapeCasts ⟨3, ![1, B, C]⟩)
    (p : Fin B) (q : Fin C) : shapeCast ⟨3, ![1, B, C]⟩ v h (ix3 (0 : Fin 1) p q) = v (ix2 p q) :=
  shapeCast_apply v h (ix3 (0 : Fin 1) p q) (ix2 p q) (by
    rw [Shape.rowMajor_val_two, Shape.rowMajor_val_three]
    show p.val * C + q.val = (0 * B + p.val) * C + q.val
    rw [Nat.zero_mul, Nat.zero_add])

/-- A rank-three array re-read at rank four: entry `(i, h, p, d)` of the result is the operand at the index
    `(i', l, e)` with the same row-major position. -/
theorem three_four_apply {a0 a1 a2 b0 b1 b2 b3 : ℕ} (x : (⟨3, ![a0, a1, a2]⟩ : Shape).Idx → α)
    (hc : (⟨3, ![a0, a1, a2]⟩ : Shape).ShapeCasts ⟨4, ![b0, b1, b2, b3]⟩)
    (i : Fin b0) (h : Fin b1) (p : Fin b2) (d : Fin b3) (i' : Fin a0) (l : Fin a1) (e : Fin a2)
    (hpos : (i'.val * a1 + l.val) * a2 + e.val = ((i.val * b1 + h.val) * b2 + p.val) * b3 + d.val) :
    shapeCast ⟨4, ![b0, b1, b2, b3]⟩ x hc (ix4 i h p d) = x (ix3 i' l e) :=
  shapeCast_apply x hc _ _ (by
    rw [Shape.rowMajor_val_three, Shape.rowMajor_val_four]
    exact hpos)

end Cert.Lib.LeadAxes

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.Region0.lean ====
/-
  The first kernel region: nine matrix products, one per kernel offset.

  The region walks the `9 × 150000 × 64` array `g` in `9 · 15` blocks of `1 × 10000 × 64`; at point `(k, m)` it multiplies
  rows `10000 m … 10000 m + 9999` of slab `k` of `g` by the `64 × 64` matrix that is slab `k` of `w`, into a zero
  accumulator, and stores the product as block `(k, m)` of the result. The blocks tile the result, so it ends holding,
  at every entry `(k, r, o)`, the sum over `i` of `g (k, r, i) · w (k, i, o)`.
-/
import proofs.«171181_j50354196578891_2_alg».proof.Proof.Gen.KernelIdeal.Frame
import proofs.«171181_j50354196578891_2_alg».proof.Proof.LibRowForms
import proofs.«171181_j50354196578891_2_alg».proof.Proof.LibLeadAxes
import proofs.«171181_j50354196578891_2_alg».proof.Proof.LibPlainDot
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0, 0] : Fin 3 → Nat) = fun _ => 0 := funext fun a => by fin_cases a <;> rfl

/-- The left operand's index for result entry `i` and contraction position `k`: `(i₀, i₁, k)`. -/
abbrev lpos (i : S9x150000x64.Idx) (k : Fin 64) : S9x150000x64.Idx := fun a => match a with
  | ⟨0, _⟩ => ⟨(i 0).val, (i 0).isLt⟩
  | ⟨1, _⟩ => ⟨(i 1).val, (i 1).isLt⟩
  | ⟨2, _⟩ => ⟨k.val, k.isLt⟩

/-- The right operand's index for result entry `i` and contraction position `k`: `(i₀, k, i₂)`. -/
abbrev rpos (i : S9x150000x64.Idx) (k : Fin 64) : S9x64x64.Idx := fun a => match a with
  | ⟨0, _⟩ => ⟨(i 0).val, (i 0).isLt⟩
  | ⟨1, _⟩ => ⟨k.val, k.isLt⟩
  | ⟨2, _⟩ => ⟨(i 2).val, (i 2).isLt⟩

/-- The region's result as one function of its two arrays: the batched matrix product. -/
def G (g : S9x150000x64.Idx → EReal) (w : S9x64x64.Idx → EReal) : S9x150000x64.Idx → EReal :=
  fun i => ∑ k : Fin 64, g (lpos i k) * w (rpos i k)

/-- What one point stores at index `j` of its block, from the two loaded blocks: a row of the rows times a column of
    the matrix. -/
def body (x0 : S1x10000x64.Idx → EReal) (x1 : S1x64x64.Idx → EReal) (j : S1x10000x64.Idx) : EReal :=
  ∑ k : Fin 64, x0 (ix3 (0 : Fin 1) ⟨(j 1).val, (j 1).isLt⟩ k) * x1 (ix3 (0 : Fin 1) k ⟨(j 2).val, (j 2).isLt⟩)

/-- It is `G` at the array index `i` when the loaded row and column are the arrays' at `i`. -/
theorem body_eq (g : S9x150000x64.Idx → EReal) (w : S9x64x64.Idx → EReal) (x0 : S1x10000x64.Idx → EReal)
    (x1 : S1x64x64.Idx → EReal) (j : S1x10000x64.Idx) (i : S9x150000x64.Idx)
    (h0 : ∀ k : Fin 64, x0 (ix3 (0 : Fin 1) ⟨(j 1).val, (j 1).isLt⟩ k) = g (lpos i k))
    (h1 : ∀ k : Fin 64, x1 (ix3 (0 : Fin 1) k ⟨(j 2).val, (j 2).isLt⟩) = w (rpos i k)) : body x0 x1 j = G g w i :=
  Finset.sum_congr rfl fun k _ => by rw [h0 k, h1 k]

/-- The kernel's matrix-product dimension numbers are the plain ones. -/
theorem dot_eq : dot_S10000x64_S64x64_S10000x64_1_0_0_1_n_n = DotDims.plain 10000 64 64 := rfl

/-- What one point stores, at entry `(0, p, q)` of its block: row `p` of the loaded rows times column `q` of the
    loaded matrix. -/
theorem pay_apply (x0 : FVec Ideal S1x10000x64 .bf16) (x1 : FVec Ideal S1x64x64 .bf16) (p : Fin 10000) (q : Fin 64) :
    k0_pay1 (F := Ideal) x0 x1 (ix3 (0 : Fin 1) p q)
      = ∑ k : Fin 64, x0 (ix3 (0 : Fin 1) p k) * x1 (ix3 (0 : Fin 1) k q) := by
  unfold k0_pay1
  rw [Cert.Lib.LeadAxes.slab_apply, dot_eq]
  refine (Cert.Lib.PlainDot.matmul_zero_apply none _ _ p q).trans ?_
  refine Finset.sum_congr rfl fun k _ => ?_
  rw [Cert.Lib.RowForms.unslab_apply, Cert.Lib.RowForms.unslab_apply]

/-- The same at any index of the block. -/
theorem pay_apply' (x0 : FVec Ideal S1x10000x64 .bf16) (x1 : FVec Ideal S1x64x64 .bf16) (j : S1x10000x64.Idx) :
    k0_pay1 (F := Ideal) x0 x1 j = body x0 x1 j := by
  obtain ⟨a, p, q, rfl⟩ : ∃ (a : Fin 1) (p : Fin 10000) (q : Fin 64), j = ix3 a p q := ⟨j 0, j 1, j 2, eq_ix3 j⟩
  obtain rfl : a = 0 := Subsingleton.elim _ _
  exact pay_apply x0 x1 p q

/-- The index maps over the grid: the rows' and the result's block at a point have the same block indices, the last one
    zero; the matrix's block is the slab of the rows' first block index. -/
theorem idx_facts : ∀ t : Fin cfg0.N, win0_0.index t (0 : Fin 3) = win0_2.index t (0 : Fin 3)
    ∧ win0_0.index t (1 : Fin 3) = win0_2.index t (1 : Fin 3) ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (2 : Fin 3) = 0
    ∧ win0_2.index t (0 : Fin 3) = t.val / 15 ∧ win0_2.index t (1 : Fin 3) = t.val % 15 :=
  (by decide +kernel : ∀ t : Fin grid0.N, _)

/-- What point `t` writes back is block `t` of `G` of the arrays as the region finds them. -/
theorem flushed_eq (c : Dev nD) (t : Fin cfg0.N) :
    (dat0 V c).flushed 2 t = ((cfg0.win 2).blk t).view.read (Elt Ideal) (G (V c main_v8) (V c main_v1)) := by
  show (cfg0.win 2).cut (grid0.coords t) ((dat0 V c).after 2 t) = _
  rw [after0_2]
  unfold out0_2
  rw [View.canon_unit_zero hz]
  simp only [View.ld_unit_zero (S := S1x10000x64) hz, View.ld_unit_zero (S := S1x64x64) hz]
  obtain ⟨e00, e01, e02, e10, e11, e12, e22, -, -⟩ := idx_facts t
  funext j
  have hj0 : (j 0).val < 1 := (j 0).isLt
  have hj1 : (j 1).val < 10000 := (j 1).isLt
  have hj2 : (j 2).val < 64 := (j 2).isLt
  refine (pay_apply' (iblk0 V c 0 t) (iblk0 V c 1 t) j).trans ?_
  refine body_eq (V c main_v8) (V c main_v1) (iblk0 V c 0 t) (iblk0 V c 1 t) j (((cfg0.win 2).blk t).view.emb j)
    (fun k => congrArg (V c main_v8) ?_) (fun k => congrArg (V c main_v1) ?_)
  · have hk : k.val < 64 := k.isLt
    funext a; apply Fin.ext
    match a with
    | ⟨0, _⟩ => show win0_0.index t (0 : Fin 3) * 1 + 1 * 0 = win0_2.index t (0 : Fin 3) * 1 + 1 * (j 0).val; omega
    | ⟨1, _⟩ => show win0_0.index t (1 : Fin 3) * 10000 + 1 * (j 1).val = win0_2.index t (1 : Fin 3) * 10000 + 1 * (j 1).val; omega
    | ⟨2, _⟩ => show win0_0.index t (2 : Fin 3) * 64 + 1 * k.val = k.val; omega
  · have hk : k.val < 64 := k.isLt
    funext a; apply Fin.ext
    match a with
    | ⟨0, _⟩ => show win0_1.index t (0 : Fin 3) * 1 + 1 * 0 = win0_2.index t (0 : Fin 3) * 1 + 1 * (j 0).val; omega
    | ⟨1, _⟩ => show win0_1.index t (1 : Fin 3) * 64 + 1 * k.val = k.val; omega
    | ⟨2, _⟩ => show win0_1.index t (2 : Fin 3) * 64 + 1 * (j 2).val = win0_2.index t (2 : Fin 3) * 64 + 1 * (j 2).val; omega

/-- An index of the result array is in point `t`'s block iff each coordinate is in the block's range on its axis. -/
theorem mem_blk (t : Fin cfg0.N) (i : S9x150000x64.Idx) :
    i ∈ ((cfg0.win 2).blk t).view.set ↔ ∀ a : Fin 3, win0_2.index t a * S1x10000x64.size a ≤ (i a).val
      ∧ (i a).val < win0_2.index t a * S1x10000x64.size a + S1x10000x64.size a := by
  show i ∈ ((View.whole main_v9).slice (win0_2.rect t)).set ↔ _
  rw [View.set_slice_whole, Rect.mem_set_unit]
  exact Iff.rfl

/-- Every entry `(k, r, o)` of the result lies in the block of the point `15 k + r / 10000`. -/
theorem cover (i : S9x150000x64.Idx) : ∃ t : Fin cfg0.N, (cfg0.win 2).flush t = true ∧ i ∈ ((cfg0.win 2).blk t).view.set := by
  have hN : cfg0.N = 135 := N_0
  have hi0 : (i 0).val < 9 := (i 0).isLt
  have hi1 : (i 1).val < 150000 := (i 1).isLt
  have hi2 : (i 2).val < 64 := (i 2).isLt
  have hlt : (i 0).val * 15 + (i 1).val / 10000 < cfg0.N := by rw [hN]; omega
  refine ⟨⟨(i 0).val * 15 + (i 1).val / 10000, hlt⟩, flush0_2 _, ?_⟩
  rw [mem_blk]
  obtain ⟨-, -, -, -, -, -, e22, e20, e21⟩ := idx_facts ⟨(i 0).val * 15 + (i 1).val / 10000, hlt⟩
  dsimp only at e20 e21
  intro a
  match a with
  | ⟨0, _⟩ =>
    show win0_2.index _ (0 : Fin 3) * 1 ≤ (i 0).val ∧ (i 0).val < win0_2.index _ (0 : Fin 3) * 1 + 1
    rw [e20]; omega
  | ⟨1, _⟩ =>
    show win0_2.index _ (1 : Fin 3) * 10000 ≤ (i 1).val ∧ (i 1).val < win0_2.index _ (1 : Fin 3) * 10000 + 10000
    rw [e21]; omega
  | ⟨2, _⟩ =>
    show win0_2.index _ (2 : Fin 3) * 64 ≤ (i 2).val ∧ (i 2).val < win0_2.index _ (2 : Fin 3) * 64 + 64
    rw [e22]; omega

/-- The result array after the region: the batched matrix product of the arrays as the region finds them. -/
theorem final (c : Dev nD) : (dat0 V c).arrAt 2 cfg0.N = G (V c main_v8) (V c main_v1) :=
  (dat0 V c).arrAt_eq_of_cover 2 (G (V c main_v8) (V c main_v1)) (fun t _ => flushed_eq V c t) cover

end Cert.KernelIdeal.Region0

end
-- ==== Proof.LibBatchNormVar.lean ====
/-
  Batch statistics of a column of finitely many REAL entries, read on the extended reals.

  A column `h i` (`i` over a finite index type of `n > 0` elements) has two spellings of its biased variance:
  the mean of the squared deviations from the mean, `(1/n) Σ (h i − μ)²` with `μ = (1/n) Σ h i`, and the mean
  of the squares less the squared mean, `(1/n) Σ (h i)² − μ²`, clamped below at zero. Over the reals the two are
  one number, and it is non-negative, so the clamp is the identity (`var_clamped_eq`). On the extended reals this
  needs every entry to be a real: with an infinite entry `⊤ − ⊤` appears and the two spellings part.

  Beside it: the inclusion of the reals commutes with finite sums (`coe_sum`) and with a quotient by a non-zero
  real at the ideal instance's division (`div_coe_coe`); a real factor `c ≥ 0` distributes over ANY finite sum of
  extended reals, infinite terms included (`mul_sum_of_nonneg_real`); a sum over `T · R` rows is the sum over
  `T` blocks of the sums over the `R` rows of a block (`sum_blocks`, row `r + R · t` in block `t`); and a running
  total that starts at zero and grows by `b t` at step `t` ends at `Σ b t` (`acc_eq_sum`).
-/
import Idealize.ShloMosaic.PureOps.Ideal
import Mathlib.Algebra.BigOperators.Fin
import Mathlib.Tactic.FieldSimp
import Mathlib.Tactic.Ring
import Mathlib.Tactic.Linarith

noncomputable section

namespace ProofLib.BatchNorm

local notation "idiv" => Idealize.ShloMosaic.Ideal.div

variable {ι : Type*}

/-- The inclusion of the reals in the extended reals commutes with finite sums. -/
theorem coe_sum (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- At the ideal instance a real divided by a non-zero real is the real quotient. -/
theorem div_coe_coe (x : ℝ) {n : ℝ} (hn : n ≠ 0) : idiv (x : EReal) (n : EReal) = ((x / n : ℝ) : EReal) := by
  rw [Idealize.ShloMosaic.Ideal.div_coe hn, ← EReal.coe_mul, mul_one_div]

/-- The sum of the squared deviations from any centre `μ`, expanded. -/
theorem real_sum_sq_dev [Fintype ι] (f : ι → ℝ) (μ : ℝ) {n : ℝ} (hcard : (Fintype.card ι : ℝ) = n) :
    ∑ i, (f i - μ) * (f i - μ) = (∑ i, f i * f i) - 2 * μ * (∑ i, f i) + n * (μ * μ) := by
  calc ∑ i, (f i - μ) * (f i - μ) = ∑ i, (f i * f i - 2 * μ * f i + μ * μ) :=
        Finset.sum_congr rfl fun i _ => by ring
    _ = (∑ i, f i * f i) - 2 * μ * (∑ i, f i) + n * (μ * μ) := by
        rw [Finset.sum_add_distrib, Finset.sum_sub_distrib, ← Finset.mul_sum, Finset.sum_const, Finset.card_univ,
          nsmul_eq_mul, hcard]

/-- Over the reals: the mean of the squares less the squared mean is the mean of the squared deviations from the mean. -/
theorem real_var_eq [Fintype ι] (f : ι → ℝ) {n : ℝ} (hn : n ≠ 0) (hcard : (Fintype.card ι : ℝ) = n) :
    (∑ i, f i * f i) / n - ((∑ i, f i) / n) * ((∑ i, f i) / n)
      = (∑ i, (f i - (∑ j, f j) / n) * (f i - (∑ j, f j) / n)) / n := by
  rw [real_sum_sq_dev f _ hcard]
  field_simp
  ring

/-- The mean of squared deviations is non-negative. -/
theorem real_var_nonneg [Fintype ι] (f : ι → ℝ) (μ : ℝ) {n : ℝ} (hn : 0 < n) :
    0 ≤ (∑ i, (f i - μ) * (f i - μ)) / n :=
  div_nonneg (Finset.sum_nonneg fun i _ => mul_self_nonneg _) hn.le

/-- On the extended reals, for a column of REAL entries: the mean of squares less the squared mean, clamped below at
    zero, is the mean of the squared deviations from the mean (divisions the ideal instance's, by the real `n`, the
    number of entries). -/
theorem var_clamped_eq [Fintype ι] (h : ι → EReal) (f : ι → ℝ) (hh : ∀ i, h i = (f i : EReal))
    {n : ℝ} (hn : 0 < n) (hcard : (Fintype.card ι : ℝ) = n) :
    max (idiv (∑ i, h i * h i) (n : EReal) - idiv (∑ i, h i) (n : EReal) * idiv (∑ i, h i) (n : EReal)) 0
      = idiv (∑ i, (h i - idiv (∑ j, h j) (n : EReal)) * (h i - idiv (∑ j, h j) (n : EReal))) (n : EReal) := by
  have hn0 : n ≠ 0 := hn.ne'
  have e1 : ∑ i, h i = ((∑ i, f i : ℝ) : EReal) := by
    rw [coe_sum]; exact Finset.sum_congr rfl fun i _ => hh i
  have e2 : ∑ i, h i * h i = ((∑ i, f i * f i : ℝ) : EReal) := by
    rw [coe_sum]; exact Finset.sum_congr rfl fun i _ => by rw [hh i, EReal.coe_mul]
  have e4 : ∑ i, (h i - (((∑ j, f j) / n : ℝ) : EReal)) * (h i - (((∑ j, f j) / n : ℝ) : EReal))
      = ((∑ i, (f i - (∑ j, f j) / n) * (f i - (∑ j, f j) / n) : ℝ) : EReal) := by
    rw [coe_sum]; exact Finset.sum_congr rfl fun i _ => by rw [hh i, EReal.coe_mul, EReal.coe_sub]
  rw [e1, e2, div_coe_coe _ hn0, div_coe_coe _ hn0, e4, div_coe_coe _ hn0, ← EReal.coe_mul, ← EReal.coe_sub,
    real_var_eq f hn0 hcard]
  exact max_eq_left (EReal.coe_nonneg.mpr (real_var_nonneg f _ hn))

/-- The mean of a column of real entries is a real: the ideal instance's quotient of their sum by `n ≠ 0`. -/
theorem mean_coe [Fintype ι] (h : ι → EReal) (f : ι → ℝ) (hh : ∀ i, h i = (f i : EReal)) {n : ℝ} (hn : n ≠ 0) :
    idiv (∑ i, h i) (n : EReal) = (((∑ i, f i) / n : ℝ) : EReal) := by
  have e1 : ∑ i, h i = ((∑ i, f i : ℝ) : EReal) := by
    rw [coe_sum]; exact Finset.sum_congr rfl fun i _ => hh i
  rw [e1, div_coe_coe _ hn]

/-- A real factor `c ≥ 0` distributes over a finite sum of extended reals, whatever the terms (an infinite term
    included: `c · (⊤ + ⊥) = c · ⊤ + c · ⊥` for `0 ≤ c < ⊤`). -/
theorem mul_sum_of_nonneg_real (c : ℝ) (hc : 0 ≤ c) (s : Finset ι) (g : ι → EReal) :
    (c : EReal) * ∑ i ∈ s, g i = ∑ i ∈ s, (c : EReal) * g i := by
  classical
  refine Finset.induction_on s ?_ ?_
  · simp
  · intro a s ha ih
    rw [Finset.sum_insert ha, Finset.sum_insert ha,
      EReal.left_distrib_of_nonneg_of_ne_top (EReal.coe_nonneg.mpr hc) (EReal.coe_ne_top c), ih]

/-- A sum over `T · R` rows is the sum over `T` blocks of the sums over the `R` rows of each block: row
    `r + R · t` is row `r` of block `t`. -/
theorem sum_blocks {M : Type*} [AddCommMonoid M] (T R : ℕ) (f : Fin (T * R) → M) :
    ∑ i, f i = ∑ t : Fin T, ∑ r : Fin R, f (finProdFinEquiv (t, r)) :=
  (Equiv.sum_comp finProdFinEquiv f).symm.trans (Fintype.sum_prod_type _)

/-- A running total that starts at zero and grows by `b t` at step `t` ends, after `T` steps, at `Σ_{t < T} b t`. -/
theorem acc_eq_sum {M : Type*} [AddCommMonoid M] (b : ℕ → M) (acc : ℕ → M) (h0 : acc 0 = 0) :
    ∀ T : ℕ, (∀ t, t < T → acc (t + 1) = acc t + b t) → acc T = ∑ t ∈ Finset.range T, b t := by
  intro T
  induction T with
  | zero => intro _; simp [h0]
  | succ k ih =>
    intro hs
    rw [hs k (Nat.lt_succ_self k), Finset.sum_range_succ, ih fun t ht => hs t (Nat.lt_succ_of_lt ht)]

end ProofLib.BatchNorm

end
-- ==== Proof.Region1.lean ====
/-
  The second kernel region: the bias, and the two column moments accumulated over the grid.

  The region walks the `200000 × 64` array `x` in 20 blocks of 10000 rows. At every point it adds the `1 × 64` bias row,
  repeated down the rows, to the block and stores that as the block of the first result; it also adds the block's column
  sums to a `1 × 64` accumulator and the column sums of its squares to another. The two accumulators keep one block for
  the whole grid: they are set to zero at the first point, read back and increased at every point, and written to their
  arrays after the last point only.

  So the first result ends holding `x n c + bias 0 c` at every entry, and — a running total that starts at zero and grows
  by a block's sum at each of the 20 points being the sum over all 200000 rows, addition of extended reals being
  commutative and associative — the accumulators end holding, at column `c`, the sum over all rows of that entry and of
  its square.
-/
import proofs.«171181_j50354196578891_2_alg».proof.Proof.Gen.KernelIdeal.Frame
import proofs.«171181_j50354196578891_2_alg».proof.Proof.LibRowForms
import proofs.«171181_j50354196578891_2_alg».proof.Proof.LibBatchNormVar
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.Region1

open Cert.KernelIdeal Cert.KernelIdeal.Gen
open Idealize.ShloMosaic Idealize.ShloMosaic.TcCoe Idealize.SL.Sem Idealize.ShloMosaic.ValueIdx Idealize.ShloMosaic.Tactic
open Idealize.ShloMosaic.Pipeline (Dat)

theorem hz : (![0, 0] : Fin 2 → Nat) = fun _ => 0 := funext fun a => by fin_cases a <;> rfl

/-! ## What the body leaves in each output's buffer, case by case, for any float values -/

section Cases
variable {F : FTy → Type} [FloatOps F]

/-- At the first point the body leaves the block plus the bias row in the first output's buffer. -/
theorem outA_2 (c : Dev nD) (i : grid1.Coords) (a1 : Memref sig .tc .vmem S10000x64 .f32) (h1 : a1.IsWhole) (a2 : Memref sig .tc .vmem S1x64 .f32) (h2 : a2.IsWhole)
    (a3 : Memref sig .tc .vmem S10000x64 .f32) (h3 : a3.IsWhole) (a4 : Memref sig .tc .vmem S1x64 .f32) (h4 : a4.IsWhole) (a5 : Memref sig .tc .vmem S1x64 .f32) (h5 : a5.IsWhole)
    (hc : cond1_0 i) (x0 : Vec F S10000x64 .f32) (x1 : Vec F S1x64 .f32) :
    out1_A_2 c i a1 h1 a2 h2 a3 h3 a4 h4 a5 h5 hc x0 x1 = k1_pay3 x0 x1 := by
  unfold out1_A_2
  rw [View.read_writes_eq_canon _ _ _ (cover1_A_2 c i a1 h1 a2 h2 a3 h3 a4 h4 a5 h5 hc x0 x1)]
  unfold kernelRun1_A
  dsimp only
  rw [View.canon_unit_zero hz]
  simp only [View.readAt_eq_ld, h1.read_unread, h2.read_unread, View.ld_unit_zero (S := S10000x64) hz, View.ld_unit_zero (S := S1x64) hz]

/-- At the first point the body leaves the block's column sums added to the zero row it has just stored. -/
theorem outA_3 (c : Dev nD) (i : grid1.Coords) (a1 : Memref sig .tc .vmem S10000x64 .f32) (h1 : a1.IsWhole) (a2 : Memref sig .tc .vmem S1x64 .f32) (h2 : a2.IsWhole)
    (a3 : Memref sig .tc .vmem S10000x64 .f32) (h3 : a3.IsWhole) (a4 : Memref sig .tc .vmem S1x64 .f32) (h4 : a4.IsWhole) (a5 : Memref sig .tc .vmem S1x64 .f32) (h5 : a5.IsWhole)
    (hc : cond1_0 i) (x0 : Vec F S10000x64 .f32) (x1 : Vec F S1x64 .f32) :
    out1_A_3 c i a1 h1 a2 h2 a3 h3 a4 h4 a5 h5 hc x0 x1 = k1_pay4 x0 x1 k1_pay1 := by
  unfold out1_A_3
  rw [View.read_writes_eq_canon _ _ _ (cover1_A_3 c i a1 h1 a2 h2 a3 h3 a4 h4 a5 h5 hc x0 x1)]
  unfold kernelRun1_A
  dsimp only
  sl_unfold_words
  rw [View.canon_cons_unit_zero (S := S1x64) hz, View.readCov_unit_zero (S := S1x64) _ hz]
  simp only [View.readAt_eq_ld, h1.read_unread, h2.read_unread, View.ld_unit_zero (S := S10000x64) hz, View.ld_unit_zero (S := S1x64) hz]

/-- At the first point the body leaves the column sums of the block's squares added to the zero row it has just stored. -/
theorem outA_4 (c : Dev nD) (i : grid1.Coords) (a1 : Memref sig .tc .vmem S10000x64 .f32) (h1 : a1.IsWhole) (a2 : Memref sig .tc .vmem S1x64 .f32) (h2 : a2.IsWhole)
    (a3 : Memref sig .tc .vmem S10000x64 .f32) (h3 : a3.IsWhole) (a4 : Memref sig .tc .vmem S1x64 .f32) (h4 : a4.IsWhole) (a5 : Memref sig .tc .vmem S1x64 .f32) (h5 : a5.IsWhole)
    (hc : cond1_0 i) (x0 : Vec F S10000x64 .f32) (x1 : Vec F S1x64 .f32) :
    out1_A_4 c i a1 h1 a2 h2 a3 h3 a4 h4 a5 h5 hc x0 x1 = k1_pay5 x0 x1 k1_pay2 := by
  unfold out1_A_4
  rw [View.read_writes_eq_canon _ _ _ (cover1_A_4 c i a1 h1 a2 h2 a3 h3 a4 h4 a5 h5 hc x0 x1)]
  unfold kernelRun1_A
  dsimp only
  sl_unfold_words
  rw [View.canon_cons_unit_zero (S := S1x64) hz, View.readCov_unit_zero (S := S1x64) _ hz]
  simp only [View.readAt_eq_ld, h1.read_unread, h2.read_unread, View.ld_unit_zero (S := S10000x64) hz, View.ld_unit_zero (S := S1x64) hz]

/-- Away from the first point the body leaves the block plus the bias row in the first output's buffer. -/
theorem outB_2 (c : Dev nD) (i : grid1.Coords) (a1 : Memref sig .tc .vmem S10000x64 .f32) (h1 : a1.IsWhole) (a2 : Memref sig .tc .vmem S1x64 .f32) (h2 : a2.IsWhole)
    (a3 : Memref sig .tc .vmem S10000x64 .f32) (h3 : a3.IsWhole) (a4 : Memref sig .tc .vmem S1x64 .f32) (h4 : a4.IsWhole) (a5 : Memref sig .tc .vmem S1x64 .f32) (h5 : a5.IsWhole)
    (hc : ¬cond1_0 i) (x0 : Vec F S10000x64 .f32) (x1 xo3 xo4 : Vec F S1x64 .f32) :
    out1_B_2 c i a1 h1 a2 h2 a3 h3 a4 h4 a5 h5 hc x0 x1 xo3 xo4 = k1_pay3 x0 x1 := by
  unfold out1_B_2
  rw [View.read_writes_eq_canon _ _ _ (cover1_B_2 c i a1 h1 a2 h2 a3 h3 a4 h4 a5 h5 hc x0 x1 xo3 xo4)]
  unfold kernelRun1_B
  dsimp only
  rw [View.canon_unit_zero hz]
  simp only [View.readAt_eq_ld, h1.read_unread, h2.read_unread, h4.read_unread, h5.read_unread, View.ld_unit_zero (S := S10000x64) hz, View.ld_unit_zero (S := S1x64) hz]

/-- Away from the first point the body leaves the block's column sums added to what the accumulator held. -/
theorem outB_3 (c : Dev nD) (i : grid1.Coords) (a1 : Memref sig .tc .vmem S10000x64 .f32) (h1 : a1.IsWhole) (a2 : Memref sig .tc .vmem S1x64 .f32) (h2 : a2.IsWhole)
    (a3 : Memref sig .tc .vmem S10000x64 .f32) (h3 : a3.IsWhole) (a4 : Memref sig .tc .vmem S1x64 .f32) (h4 : a4.IsWhole) (a5 : Memref sig .tc .vmem S1x64 .f32) (h5 : a5.IsWhole)
    (hc : ¬cond1_0 i) (x0 : Vec F S10000x64 .f32) (x1 xo3 xo4 : Vec F S1x64 .f32) :
    out1_B_3 c i a1 h1 a2 h2 a3 h3 a4 h4 a5 h5 hc x0 x1 xo3 xo4 = k1_pay4 x0 x1 xo3 := by
  unfold out1_B_3
  rw [View.read_writes_eq_canon _ _ _ (cover1_B_3 c i a1 h1 a2 h2 a3 h3 a4 h4 a5 h5 hc x0 x1 xo3 xo4)]
  unfold kernelRun1_B
  dsimp only
  rw [View.canon_unit_zero hz]
  simp only [View.readAt_eq_ld, h1.read_unread, h2.read_unread, h4.read_unread, h5.read_unread, View.ld_unit_zero (S := S10000x64) hz, View.ld_unit_zero (S := S1x64) hz]

/-- Away from the first point the body leaves the column sums of the block's squares added to what the accumulator held. -/
theorem outB_4 (c : Dev nD) (i : grid1.Coords) (a1 : Memref sig .tc .vmem S10000x64 .f32) (h1 : a1.IsWhole) (a2 : Memref sig .tc .vmem S1x64 .f32) (h2 : a2.IsWhole)
    (a3 : Memref sig .tc .vmem S10000x64 .f32) (h3 : a3.IsWhole) (a4 : Memref sig .tc .vmem S1x64 .f32) (h4 : a4.IsWhole) (a5 : Memref sig .tc .vmem S1x64 .f32) (h5 : a5.IsWhole)
    (hc : ¬cond1_0 i) (x0 : Vec F S10000x64 .f32) (x1 xo3 xo4 : Vec F S1x64 .f32) :
    out1_B_4 c i a1 h1 a2 h2 a3 h3 a4 h4 a5 h5 hc x0 x1 xo3 xo4 = k1_pay5 x0 x1 xo4 := by
  unfold out1_B_4
  rw [View.read_writes_eq_canon _ _ _ (cover1_B_4 c i a1 h1 a2 h2 a3 h3 a4 h4 a5 h5 hc x0 x1 xo3 xo4)]
  unfold kernelRun1_B
  dsimp only
  rw [View.canon_unit_zero hz]
  simp only [View.readAt_eq_ld, h1.read_unread, h2.read_unread, h4.read_unread, h5.read_unread, View.ld_unit_zero (S := S10000x64) hz, View.ld_unit_zero (S := S1x64) hz]

end Cases

/-! ## The payloads read at an entry, on the extended reals -/

/-- The column of an entry of a `· × 64` array, as a number below 64. -/
abbrev col {n : Nat} (i : (⟨2, ![n, 64]⟩ : Shape).Idx) : Fin 64 := ⟨(i 1).val, (i 1).isLt⟩

/-- The first result as one function of the region's two arrays: the entry plus the bias at its column. -/
def biased (x : S200000x64.Idx → EReal) (bias : S1x64.Idx → EReal) : S200000x64.Idx → EReal :=
  fun i => x i + bias (ix2 (0 : Fin 1) (col i))

/-- The column sums of the first result, as a `1 × 64` row. -/
def colSum (x : S200000x64.Idx → EReal) (bias : S1x64.Idx → EReal) : S1x64.Idx → EReal :=
  fun j => ∑ k : Fin 200000, biased x bias (ix2 k (col j))

/-- The column sums of its squares, as a `1 × 64` row. -/
def colSumSq (x : S200000x64.Idx → EReal) (bias : S1x64.Idx → EReal) : S1x64.Idx → EReal :=
  fun j => ∑ k : Fin 200000, biased x bias (ix2 k (col j)) * biased x bias (ix2 k (col j))

/-- The two rows read at an index: sums down a column of the biased array. -/
theorem colSum_apply (x : S200000x64.Idx → EReal) (bias : S1x64.Idx → EReal) (j : S1x64.Idx) :
    colSum x bias j = ∑ k : Fin 200000, biased x bias (ix2 k (col j)) := rfl

theorem colSumSq_apply (x : S200000x64.Idx → EReal) (bias : S1x64.Idx → EReal) (j : S1x64.Idx) :
    colSumSq x bias j = ∑ k : Fin 200000, biased x bias (ix2 k (col j)) * biased x bias (ix2 k (col j)) := rfl

-- the sums run over 200000 rows: from here on the two rows are read through the two lemmas above only
attribute [irreducible] colSum colSumSq

/-- What one point stores in the first output at index `j` of its block. -/
def body (x0 : S10000x64.Idx → EReal) (x1 : S1x64.Idx → EReal) (j : S10000x64.Idx) : EReal :=
  x0 j + x1 (ix2 (0 : Fin 1) (col j))

/-- It is `biased` at the array index `i` when the two loaded entries are the arrays' entries at `i`'s row and column. -/
theorem body_eq (x : S200000x64.Idx → EReal) (bias : S1x64.Idx → EReal) (x0 : S10000x64.Idx → EReal)
    (x1 : S1x64.Idx → EReal) (j : S10000x64.Idx) (i : S200000x64.Idx) (h0 : x0 j = x i)
    (h1 : x1 (ix2 (0 : Fin 1) (col j)) = bias (ix2 (0 : Fin 1) (col i))) : body x0 x1 j = biased x bias i := by
  unfold body biased; rw [h0, h1]

theorem pay3_apply (x0 : FVec Ideal S10000x64 .f32) (x1 : FVec Ideal S1x64 .f32) (p : Fin 10000) (q : Fin 64) :
    k1_pay3 (F := Ideal) x0 x1 (ix2 p q) = body x0 x1 (ix2 p q) := by
  unfold k1_pay3
  simp only [shapeCast_self]
  show x0 (ix2 p q) + broadcastTo S10000x64 x1 broadcasts_S1x64_S10000x64 (ix2 p q) = _
  rw [Cert.Lib.RowForms.rowBroadcast_apply]
  rfl

theorem pay3_apply' (x0 : FVec Ideal S10000x64 .f32) (x1 : FVec Ideal S1x64 .f32) (j : S10000x64.Idx) :
    k1_pay3 (F := Ideal) x0 x1 j = body x0 x1 j := by
  obtain ⟨p, q, rfl⟩ : ∃ (p : Fin 10000) (q : Fin 64), j = ix2 p q := ⟨j 0, j 1, eq_ix2 j⟩
  exact pay3_apply x0 x1 p q

/-- The add reduction down the rows of a `10000 × 64` block, as the body spells it, read at column `q`: the sum of the
    column's 10000 entries. -/
theorem colsum_apply (src : FVec Ideal S10000x64 .f32) (q : Fin 64) :
    multiReduction .add [0] S64 src 0x00000000#32 reduces_S10000x64_S64 (.inl rfl) rfl (ix1 q)
      = ∑ p : Fin 10000, src (ix2 p q) := by
  refine (Ideal.multiReduction_add_single src 0x00000000#32 reduces_S10000x64_S64 (.inl rfl) rfl (ix1 q)).trans ?_
  refine Finset.sum_congr rfl fun p _ => congrArg src ?_
  funext a
  match a with
  | ⟨0, _⟩ => rfl
  | ⟨1, _⟩ => rfl

/-- The sum accumulator's new contents at column `q`: what it held plus the block's column sum. -/
theorem pay4_apply (x0 : FVec Ideal S10000x64 .f32) (x1 acc : FVec Ideal S1x64 .f32) (q : Fin 64) :
    k1_pay4 (F := Ideal) x0 x1 acc (ix2 (0 : Fin 1) q)
      = acc (ix2 (0 : Fin 1) q) + ∑ p : Fin 10000, k1_pay3 (F := Ideal) x0 x1 (ix2 p q) := by
  unfold k1_pay4
  simp only [shapeCast_self]
  show acc (ix2 (0 : Fin 1) q) + shapeCast S1x64 (multiReduction .add [0] S64 (k1_pay3 (F := Ideal) x0 x1) 0x00000000#32
    reduces_S10000x64_S64 (.inl rfl) rfl) shapeCasts_S64_S1x64 (ix2 (0 : Fin 1) q) = _
  rw [Cert.Lib.RowForms.vecRow_apply]
  exact congrArg (acc (ix2 (0 : Fin 1) q) + ·) (colsum_apply _ q)

/-- The sum-of-squares accumulator's new contents at column `q`. -/
theorem pay5_apply (x0 : FVec Ideal S10000x64 .f32) (x1 acc : FVec Ideal S1x64 .f32) (q : Fin 64) :
    k1_pay5 (F := Ideal) x0 x1 acc (ix2 (0 : Fin 1) q)
      = acc (ix2 (0 : Fin 1) q)
        + ∑ p : Fin 10000, k1_pay3 (F := Ideal) x0 x1 (ix2 p q) * k1_pay3 (F := Ideal) x0 x1 (ix2 p q) := by
  unfold k1_pay5
  simp only [shapeCast_self]
  show acc (ix2 (0 : Fin 1) q) + shapeCast S1x64 (multiReduction .add [0] S64
    (mulf (k1_pay3 (F := Ideal) x0 x1) (k1_pay3 (F := Ideal) x0 x1)) 0x00000000#32
    reduces_S10000x64_S64 (.inl rfl) rfl) shapeCasts_S64_S1x64 (ix2 (0 : Fin 1) q) = _
  rw [Cert.Lib.RowForms.vecRow_apply]
  exact congrArg (acc (ix2 (0 : Fin 1) q) + ·) (colsum_apply _ q)

/-- The zero rows the first point stores denote zero. -/
theorem pay1_apply (j : S1x64.Idx) : (k1_pay1 (F := Ideal) j : EReal) = 0 := Ideal.ofBits_zero_f32
theorem pay2_apply (j : S1x64.Idx) : (k1_pay2 (F := Ideal) j : EReal) = 0 := Ideal.ofBits_zero_f32

/-! ## Rows by blocks -/

/-- Row `p` of block `t` of the array: row `p + 10000 t` (read modulo the number of rows, so that it is a row for
    every `t`; for `t < 20` nothing wraps). -/
def rowIdx (t : ℕ) (p : Fin 10000) : Fin 200000 := ⟨(p.val + 10000 * t) % 200000, Nat.mod_lt _ (by decide)⟩

/-- A sum over 20 blocks of 10000 rows is the sum over the 200000 rows. -/
theorem sum_rows (f : Fin 200000 → EReal) :
    ∑ t ∈ Finset.range 20, ∑ p : Fin 10000, f (rowIdx t p) = ∑ k : Fin 200000, f k := by
  rw [Finset.sum_range]
  have h := ProofLib.BatchNorm.sum_blocks 20 10000 (fun i : Fin (20 * 10000) => f ⟨i.val, i.isLt⟩)
  have h2 : ∑ i : Fin (20 * 10000), f ⟨i.val, i.isLt⟩ = ∑ k : Fin 200000, f k := rfl
  rw [← h2, h]
  refine Finset.sum_congr rfl fun t _ => Finset.sum_congr rfl fun p _ => congrArg f (Fin.ext ?_)
  have ht : t.val < 20 := t.isLt
  have hp : p.val < 10000 := p.isLt
  show (p.val + 10000 * t.val) % 200000 = p.val + 10000 * t.val
  omega

/-! ## The region at the arrays it finds -/

variable (V : (c : Dev nD) → (b : Ref sig .tc) → Buf (Elt Ideal) ((c : Thread nD τ).loc b))

/-- The index maps over the grid: the block of `x` and of the first result at point `t` is block `t` of rows; the bias
    row and the two accumulators stay at their one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Entry `(p, q)` of what point `t` stores in the first output is the biased array at row `p + 10000 t`, column `q`. -/
theorem blk_eq (c : Dev nD) (t : Fin cfg1.N) (p : Fin 10000) (q : Fin 64) :
    k1_pay3 (F := Ideal) (iblk1 V c 0 t) (iblk1 V c 1 t) (ix2 p q)
      = biased (V c main_v19) (V c main_v20) (ix2 (rowIdx t.val p) q) := by
  have hN : cfg1.N = 20 := N_1
  have ht : t.val < 20 := lt_of_lt_of_eq t.isLt hN
  have hp : p.val < 10000 := p.isLt
  obtain ⟨e00, e01, e10, e11, -⟩ := idx_facts t
  refine (pay3_apply (iblk1 V c 0 t) (iblk1 V c 1 t) p q).trans ?_
  have h0 : ((cfg1.win 0).blk t).view.emb (ix2 p q) = ix2 (rowIdx t.val p) q := by
    funext a; apply Fin.ext
    match a with
    | ⟨0, _⟩ => show win1_0.index t (0 : Fin 2) * 10000 + 1 * p.val = (p.val + 10000 * t.val) % 200000; omega
    | ⟨1, _⟩ => show win1_0.index t (1 : Fin 2) * 64 + 1 * q.val = q.val; omega
  have h1 : ((cfg1.win 1).blk t).view.emb (ix2 (0 : Fin 1) (col (ix2 p q))) = ix2 (0 : Fin 1) (col (ix2 (rowIdx t.val p) q)) := by
    funext a; apply Fin.ext
    match a with
    | ⟨0, _⟩ => show win1_1.index t (0 : Fin 2) * 1 + 1 * 0 = 0; omega
    | ⟨1, _⟩ => show win1_1.index t (1 : Fin 2) * 64 + 1 * q.val = q.val; omega
  exact body_eq (V c main_v19) (V c main_v20) (iblk1 V c 0 t) (iblk1 V c 1 t) (ix2 p q) (ix2 (rowIdx t.val p) q)
    (congrArg (V c main_v19) h0) (congrArg (V c main_v20) h1)

/-- THE RUNNING SUM. After point `n` the sum accumulator holds, at column `q`, the sum over the rows of blocks
    `0 … n` of the biased entries — by induction on the point. -/
theorem acc3_eq (c : Dev nD) : ∀ (n : ℕ) (h : n < cfg1.N) (q : Fin 64),
    ((outsAt1 V c n h).2.1 (ix2 (0 : Fin 1) q) : EReal)
      = ∑ t ∈ Finset.range (n + 1), ∑ p : Fin 10000, biased (V c main_v19) (V c main_v20) (ix2 (rowIdx t p) q)
  | 0, h, q => by
    rw [outsAt1_A V c ⟨0, h⟩ rfl]
    dsimp only
    rw [outA_3]
    refine (pay4_apply _ _ _ q).trans ?_
    rw [pay1_apply, zero_add, Finset.sum_range_one]
    exact Finset.sum_congr rfl fun p _ => blk_eq V c ⟨0, h⟩ p q
  | n + 1, h, q => by
    have hN : cfg1.N = 20 := N_1
    have hB : ¬(⟨n + 1, h⟩ : Fin cfg1.N).val % 20 = 0 := by dsimp only; omega
    rw [outsAt1_B V c ⟨n + 1, h⟩ hB]
    dsimp only
    rw [outB_3]
    refine (pay4_apply _ _ _ q).trans ?_
    rw [Finset.sum_range_succ]
    refine congrArg₂ (· + ·) (acc3_eq c n (Nat.lt_of_succ_lt h) q) ?_
    exact Finset.sum_congr rfl fun p _ => blk_eq V c ⟨n + 1, h⟩ p q

/-- The same for the sum of squares. -/
theorem acc4_eq (c : Dev nD) : ∀ (n : ℕ) (h : n < cfg1.N) (q : Fin 64),
    ((outsAt1 V c n h).2.2 (ix2 (0 : Fin 1) q) : EReal)
      = ∑ t ∈ Finset.range (n + 1), ∑ p : Fin 10000, biased (V c main_v19) (V c main_v20) (ix2 (rowIdx t p) q)
          * biased (V c main_v19) (V c main_v20) (ix2 (rowIdx t p) q)
  | 0, h, q => by
    rw [outsAt1_A V c ⟨0, h⟩ rfl]
    dsimp only
    rw [outA_4]
    refine (pay5_apply _ _ _ q).trans ?_
    rw [pay2_apply, zero_add, Finset.sum_range_one]
    exact Finset.sum_congr rfl fun p _ => by rw [blk_eq V c ⟨0, h⟩ p q]
  | n + 1, h, q => by
    have hN : cfg1.N = 20 := N_1
    have hB : ¬(⟨n + 1, h⟩ : Fin cfg1.N).val % 20 = 0 := by dsimp only; omega
    rw [outsAt1_B V c ⟨n + 1, h⟩ hB]
    dsimp only
    rw [outB_4]
    refine (pay5_apply _ _ _ q).trans ?_
    rw [Finset.sum_range_succ]
    refine congrArg₂ (· + ·) (acc4_eq c n (Nat.lt_of_succ_lt h) q) ?_
    exact Finset.sum_congr rfl fun p _ => by rw [blk_eq V c ⟨n + 1, h⟩ p q]

/-- The running sums at any index of the `1 × 64` row. -/
theorem acc3_at (c : Dev nD) (n : ℕ) (h : n < cfg1.N) (j : S1x64.Idx) :
    ((outsAt1 V c n h).2.1 j : EReal)
      = ∑ t ∈ Finset.range (n + 1), ∑ p : Fin 10000, biased (V c main_v19) (V c main_v20) (ix2 (rowIdx t p) (col j)) := by
  obtain ⟨a, q, rfl⟩ : ∃ (a : Fin 1) (q : Fin 64), j = ix2 a q := ⟨j 0, j 1, eq_ix2 j⟩
  obtain rfl : a = 0 := Subsingleton.elim _ _
  exact acc3_eq V c n h q

theorem acc4_at (c : Dev nD) (n : ℕ) (h : n < cfg1.N) (j : S1x64.Idx) :
    ((outsAt1 V c n h).2.2 j : EReal)
      = ∑ t ∈ Finset.range (n + 1), ∑ p : Fin 10000, biased (V c main_v19) (V c main_v20) (ix2 (rowIdx t p) (col j))
          * biased (V c main_v19) (V c main_v20) (ix2 (rowIdx t p) (col j)) := by
  obtain ⟨a, q, rfl⟩ : ∃ (a : Fin 1) (q : Fin 64), j = ix2 a q := ⟨j 0, j 1, eq_ix2 j⟩
  obtain rfl : a = 0 := Subsingleton.elim _ _
  exact acc4_eq V c n h q

/-! ## The first result: every point writes its block back -/

/-- What the body leaves in the first output's buffer at any point: the block plus the bias row. -/
theorem after2_eq (c : Dev nD) (t : Fin cfg1.N) :
    (dat1 V c).after 2 t = k1_pay3 (F := Ideal) (iblk1 V c 0 t) (iblk1 V c 1 t) := by
  rw [after1_2]
  by_cases h0 : t.val % 20 = 0
  · rw [outsAt1_A V c t h0]; dsimp only; rw [outA_2]
  · rw [outsAt1_B V c t h0]; dsimp only; rw [outB_2]

theorem flushed2_eq (c : Dev nD) (t : Fin cfg1.N) :
    (dat1 V c).flushed 2 t = ((cfg1.win 2).blk t).view.read (Elt Ideal) (biased (V c main_v19) (V c main_v20)) := by
  show (cfg1.win 2).cut (grid1.coords t) ((dat1 V c).after 2 t) = _
  rw [after2_eq]
  obtain ⟨e00, e01, e10, e11, e20, e21, -⟩ := idx_facts t
  funext j
  have hj0 : (j 0).val < 10000 := (j 0).isLt
  have hj1 : (j 1).val < 64 := (j 1).isLt
  refine (pay3_apply' (iblk1 V c 0 t) (iblk1 V c 1 t) j).trans ?_
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (ix2 (0 : Fin 1) (col j)) = ix2 (0 : Fin 1) (col (((cfg1.win 2).blk t).view.emb j)) := by
    funext a; apply Fin.ext
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega
  exact body_eq (V c main_v19) (V c main_v20) (iblk1 V c 0 t) (iblk1 V c 1 t) j (((cfg1.win 2).blk t).view.emb j)
    (congrArg (V c main_v19) h0) (congrArg (V c main_v20) h1)

theorem mem_blk2 (t : Fin cfg1.N) (i : S200000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v21_0).slice (win1_2.rect t)).set ↔ _
  rw [View.set_slice_whole, Rect.mem_set_unit]
  exact Iff.rfl

theorem cover2 (i : S200000x64.Idx) : ∃ t : Fin cfg1.N, (cfg1.win 2).flush t = true ∧ i ∈ ((cfg1.win 2).blk t).view.set := by
  have hN : cfg1.N = 20 := N_1
  have hi0 : (i 0).val < 200000 := (i 0).isLt
  have hi1 : (i 1).val < 64 := (i 1).isLt
  refine ⟨⟨(i 0).val / 10000, by rw [hN]; omega⟩, flush1_2 _, ?_⟩
  rw [mem_blk2]
  obtain ⟨-, -, -, -, e20, e21, -⟩ := idx_facts ⟨(i 0).val / 10000, by rw [hN]; omega⟩
  intro a
  match a with
  | ⟨0, _⟩ =>
    show win1_2.index _ (0 : Fin 2) * 10000 ≤ (i 0).val ∧ (i 0).val < win1_2.index _ (0 : Fin 2) * 10000 + 10000
    rw [e20]; dsimp only; omega
  | ⟨1, _⟩ =>
    show win1_2.index _ (1 : Fin 2) * 64 ≤ (i 1).val ∧ (i 1).val < win1_2.index _ (1 : Fin 2) * 64 + 64
    rw [e21]; omega

/-- The first result array after the region. -/
theorem final2 (c : Dev nD) : (dat1 V c).arrAt 2 cfg1.N = biased (V c main_v19) (V c main_v20) :=
  (dat1 V c).arrAt_eq_of_cover 2 (biased (V c main_v19) (V c main_v20)) (fun t _ => flushed2_eq V c t) cover2

/-! ## The accumulators: written back after the last point only -/

/-- The last point. -/
abbrev tLast : Fin cfg1.N := ⟨19, by rw [show cfg1.N = 20 from N_1]; decide⟩

theorem flushed3_eq (c : Dev nD) (t : Fin cfg1.N) (hf : (cfg1.win 3).flush t = true) :
    (dat1 V c).flushed 3 t = ((cfg1.win 3).blk t).view.read (Elt Ideal) (colSum (V c main_v19) (V c main_v20)) := by
  have hN : cfg1.N = 20 := N_1
  have ht : t.val = 19 := by have := (flush1_3 t).mp hf; have := t.isLt; omega
  obtain ⟨-, -, -, -, -, -, e30, e31, -⟩ := idx_facts t
  show (cfg1.win 3).cut (grid1.coords t) ((dat1 V c).after 3 t) = _
  rw [after1_3]
  funext j
  have hj1 : (j 1).val < 64 := (j 1).isLt
  refine (acc3_at V c t.val t.isLt j).trans ?_
  rw [show t.val + 1 = 20 by omega]
  refine (sum_rows (fun k => biased (V c main_v19) (V c main_v20) (ix2 k (col j)))).trans ?_
  have hcol : col j = col (((cfg1.win 3).blk t).view.emb j) :=
    Fin.ext (by show (j 1).val = win1_3.index t (1 : Fin 2) * 64 + 1 * (j 1).val; omega)
  rw [hcol]
  exact (colSum_apply (V c main_v19) (V c main_v20) (((cfg1.win 3).blk t).view.emb j)).symm

theorem flushed4_eq (c : Dev nD) (t : Fin cfg1.N) (hf : (cfg1.win 4).flush t = true) :
    (dat1 V c).flushed 4 t = ((cfg1.win 4).blk t).view.read (Elt Ideal) (colSumSq (V c main_v19) (V c main_v20)) := by
  have hN : cfg1.N = 20 := N_1
  have ht : t.val = 19 := by have := (flush1_4 t).mp hf; have := t.isLt; omega
  obtain ⟨-, -, -, -, -, -, -, -, e40, e41⟩ := idx_facts t
  show (cfg1.win 4).cut (grid1.coords t) ((dat1 V c).after 4 t) = _
  rw [after1_4]
  funext j
  have hj1 : (j 1).val < 64 := (j 1).isLt
  refine (acc4_at V c t.val t.isLt j).trans ?_
  rw [show t.val + 1 = 20 by omega]
  refine (sum_rows (fun k => biased (V c main_v19) (V c main_v20) (ix2 k (col j))
    * biased (V c main_v19) (V c main_v20) (ix2 k (col j)))).trans ?_
  have hcol : col j = col (((cfg1.win 4).blk t).view.emb j) :=
    Fin.ext (by show (j 1).val = win1_4.index t (1 : Fin 2) * 64 + 1 * (j 1).val; omega)
  rw [hcol]
  exact (colSumSq_apply (V c main_v19) (V c main_v20) (((cfg1.win 4).blk t).view.emb j)).symm

/-- Every entry of a `1 × 64` accumulator array lies in the one block, which the last point writes back. -/
theorem cover3 (i : S1x64.Idx) : ∃ t : Fin cfg1.N, (cfg1.win 3).flush t = true ∧ i ∈ ((cfg1.win 3).blk t).view.set := by
  have hi0 : (i 0).val < 1 := (i 0).isLt
  have hi1 : (i 1).val < 64 := (i 1).isLt
  refine ⟨tLast, (flush1_3 tLast).mpr (by decide), ?_⟩
  show i ∈ ((View.whole main_v21_1).slice (win1_3.rect tLast)).set
  rw [View.set_slice_whole, Rect.mem_set_unit]
  obtain ⟨-, -, -, -, -, -, e30, e31, -⟩ := idx_facts tLast
  intro a
  match a with
  | ⟨0, _⟩ =>
    show win1_3.index tLast (0 : Fin 2) * 1 ≤ (i 0).val ∧ (i 0).val < win1_3.index tLast (0 : Fin 2) * 1 + 1
    rw [e30]; omega
  | ⟨1, _⟩ =>
    show win1_3.index tLast (1 : Fin 2) * 64 ≤ (i 1).val ∧ (i 1).val < win1_3.index tLast (1 : Fin 2) * 64 + 64
    rw [e31]; omega

theorem cover4 (i : S1x64.Idx) : ∃ t : Fin cfg1.N, (cfg1.win 4).flush t = true ∧ i ∈ ((cfg1.win 4).blk t).view.set := by
  have hi0 : (i 0).val < 1 := (i 0).isLt
  have hi1 : (i 1).val < 64 := (i 1).isLt
  refine ⟨tLast, (flush1_4 tLast).mpr (by decide), ?_⟩
  show i ∈ ((View.whole main_v21_2).slice (win1_4.rect tLast)).set
  rw [View.set_slice_whole, Rect.mem_set_unit]
  obtain ⟨-, -, -, -, -, -, -, -, e40, e41⟩ := idx_facts tLast
  intro a
  match a with
  | ⟨0, _⟩ =>
    show win1_4.index tLast (0 : Fin 2) * 1 ≤ (i 0).val ∧ (i 0).val < win1_4.index tLast (0 : Fin 2) * 1 + 1
    rw [e40]; omega
  | ⟨1, _⟩ =>
    show win1_4.index tLast (1 : Fin 2) * 64 ≤ (i 1).val ∧ (i 1).val < win1_4.index tLast (1 : Fin 2) * 64 + 64
    rw [e41]; omega

/-- The two accumulator arrays after the region: the column sums of the biased array and of its squares. -/
theorem final3 (c : Dev nD) : (dat1 V c).arrAt 3 cfg1.N = colSum (V c main_v19) (V c main_v20) :=
  (dat1 V c).arrAt_eq_of_cover 3 (colSum (V c main_v19) (V c main_v20)) (flushed3_eq V c) cover3

theorem final4 (c : Dev nD) : (dat1 V c).arrAt 4 cfg1.N = colSumSq (V c main_v19) (V c main_v20) :=
  (dat1 V c).arrAt_eq_of_cover 4 (colSumSq (V c main_v19) (V c main_v20)) (flushed4_eq V c) cover4

end Cert.KernelIdeal.Region1

end
-- ==== Proof.Region2.lean ====
/-
  The third kernel region: the affine map and the positive part.

  The region walks the `200000 × 64` array `x` in 20 blocks of 10000 rows. At each point it multiplies the block by the
  `1 × 64` row `s` repeated down the rows, adds the row `t` repeated down the rows, and stores the maximum with zero. Block `p`
  of the result is rows `10000 p … 10000 p + 9999`, the two rows are the same at every point, and the 20 blocks tile the
  result, so the result array ends holding `max (x n c · s 0 c + t 0 c) 0` at every entry `(n, c)`.
-/
import proofs.«171181_j50354196578891_2_alg».proof.Proof.Gen.KernelIdeal.Frame
import proofs.«171181_j50354196578891_2_alg».proof.Proof.LibRowForms
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The column of an entry of a `· × 64` array, as a number below 64. -/
abbrev col {n : Nat} (i : (⟨2, ![n, 64]⟩ : Shape).Idx) : Fin 64 := ⟨(i 1).val, (i 1).isLt⟩

/-- The region's result as one function of its three arrays: `max (x · s + t) 0`, the rows `s` and `t` read at the
    entry's column. -/
def G (x : S200000x64.Idx → EReal) (s t : S1x64.Idx → EReal) : S200000x64.Idx → EReal :=
  fun i => max (x i * s (ix2 (0 : Fin 1) (col i)) + t (ix2 (0 : Fin 1) (col i))) (Ideal.ofBits .f32 0x00000000#32)

/-- What one point stores at index `j` of its block, from the three loaded blocks. -/
def body (x0 : S10000x64.Idx → EReal) (x1 x2 : S1x64.Idx → EReal) (j : S10000x64.Idx) : EReal :=
  max (x0 j * x1 (ix2 (0 : Fin 1) (col j)) + x2 (ix2 (0 : Fin 1) (col j))) (Ideal.ofBits .f32 0x00000000#32)

/-- It is `G` at the array index `i` when the three loaded entries are the arrays' entries at `i`'s row and column. -/
theorem body_eq (x : S200000x64.Idx → EReal) (s t : S1x64.Idx → EReal) (x0 : S10000x64.Idx → EReal)
    (x1 x2 : S1x64.Idx → EReal) (j : S10000x64.Idx) (i : S200000x64.Idx) (h0 : x0 j = x i)
    (h1 : x1 (ix2 (0 : Fin 1) (col j)) = s (ix2 (0 : Fin 1) (col i)))
    (h2 : x2 (ix2 (0 : Fin 1) (col j)) = t (ix2 (0 : Fin 1) (col i))) : body x0 x1 x2 j = G x s t i := by
  unfold body G; rw [h0, h1, h2]

/-- What one point stores, at entry `(p, q)` of its block. -/
theorem pay_apply (x0 : FVec Ideal S10000x64 .f32) (x1 x2 : FVec Ideal S1x64 .f32) (p : Fin 10000) (q : Fin 64) :
    k2_pay1 (F := Ideal) x0 x1 x2 (ix2 p q)
      = max (x0 (ix2 p q) * x1 (ix2 (0 : Fin 1) q) + x2 (ix2 (0 : Fin 1) q)) (Ideal.ofBits .f32 0x00000000#32) := by
  unfold k2_pay1
  simp only [shapeCast_self]
  show max (x0 (ix2 p q) * broadcastTo S10000x64 x1 broadcasts_S1x64_S10000x64 (ix2 p q)
    + broadcastTo S10000x64 x2 broadcasts_S1x64_S10000x64 (ix2 p q)) _ = _
  rw [Cert.Lib.RowForms.rowBroadcast_apply, Cert.Lib.RowForms.rowBroadcast_apply]
  rfl

/-- The same at any index of the block. -/
theorem pay_apply' (x0 : FVec Ideal S10000x64 .f32) (x1 x2 : FVec Ideal S1x64 .f32) (j : S10000x64.Idx) :
    k2_pay1 (F := Ideal) x0 x1 x2 j = body x0 x1 x2 j := by
  obtain ⟨p, q, rfl⟩ : ∃ (p : Fin 10000) (q : Fin 64), j = ix2 p q := ⟨j 0, j 1, eq_ix2 j⟩
  exact pay_apply x0 x1 x2 p q

/-- The index maps over the grid: the block of `x` and of the result at point `t` is block `t` of rows, all columns;
    the two rows stay at their one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of `G` of the arrays as the region finds them. -/
theorem flushed_eq (c : Dev nD) (t : Fin cfg2.N) :
    (dat2 V c).flushed 3 t
      = ((cfg2.win 3).blk t).view.read (Elt Ideal) (G (V c main_v21_0) (V c main_v36) (V c main_v37)) := by
  show (cfg2.win 3).cut (grid2.coords t) ((dat2 V c).after 3 t) = _
  rw [after2_3]
  unfold out2_3
  rw [View.canon_unit_zero hz]
  simp only [View.ld_unit_zero (S := S10000x64) hz, View.ld_unit_zero (S := S1x64) hz]
  obtain ⟨e00, e01, e10, e11, e20, e21, e30, e31⟩ := idx_facts t
  funext j
  have hj0 : (j 0).val < 10000 := (j 0).isLt
  have hj1 : (j 1).val < 64 := (j 1).isLt
  refine (pay_apply' (iblk2 V c 0 t) (iblk2 V c 1 t) (iblk2 V c 2 t) j).trans ?_
  have h0 : ((cfg2.win 0).blk t).view.emb j = ((cfg2.win 3).blk t).view.emb j := by
    funext a; apply Fin.ext
    match a with
    | ⟨0, _⟩ => show win2_0.index t (0 : Fin 2) * 10000 + 1 * (j 0).val = win2_3.index t (0 : Fin 2) * 10000 + 1 * (j 0).val; omega
    | ⟨1, _⟩ => show win2_0.index t (1 : Fin 2) * 64 + 1 * (j 1).val = win2_3.index t (1 : Fin 2) * 64 + 1 * (j 1).val; omega
  have h1 : ((cfg2.win 1).blk t).view.emb (ix2 (0 : Fin 1) (col j)) = ix2 (0 : Fin 1) (col (((cfg2.win 3).blk t).view.emb j)) := by
    funext a; apply Fin.ext
    match a with
    | ⟨0, _⟩ => show win2_1.index t (0 : Fin 2) * 1 + 1 * 0 = 0; omega
    | ⟨1, _⟩ => show win2_1.index t (1 : Fin 2) * 64 + 1 * (j 1).val = win2_3.index t (1 : Fin 2) * 64 + 1 * (j 1).val; omega
  have h2 : ((cfg2.win 2).blk t).view.emb (ix2 (0 : Fin 1) (col j)) = ix2 (0 : Fin 1) (col (((cfg2.win 3).blk t).view.emb j)) := by
    funext a; apply Fin.ext
    match a with
    | ⟨0, _⟩ => show win2_2.index t (0 : Fin 2) * 1 + 1 * 0 = 0; omega
    | ⟨1, _⟩ => show win2_2.index t (1 : Fin 2) * 64 + 1 * (j 1).val = win2_3.index t (1 : Fin 2) * 64 + 1 * (j 1).val; omega
  exact body_eq (V c main_v21_0) (V c main_v36) (V c main_v37) (iblk2 V c 0 t) (iblk2 V c 1 t) (iblk2 V c 2 t) j
    (((cfg2.win 3).blk t).view.emb j) (congrArg (V c main_v21_0) h0) (congrArg (V c main_v36) h1) (congrArg (V c main_v37) h2)

/-- An index of the result array is in point `t`'s block iff each coordinate is in the block's range on its axis. -/
theorem mem_blk (t : Fin cfg2.N) (i : S200000x64.Idx) :
    i ∈ ((cfg2.win 3).blk t).view.set ↔ ∀ a : Fin 2, win2_3.index t a * S10000x64.size a ≤ (i a).val
      ∧ (i a).val < win2_3.index t a * S10000x64.size a + S10000x64.size a := by
  show i ∈ ((View.whole main_v38).slice (win2_3.rect t)).set ↔ _
  rw [View.set_slice_whole, Rect.mem_set_unit]
  exact Iff.rfl

/-- Every entry of the result lies in the block of the point its row falls in. -/
theorem cover (i : S200000x64.Idx) : ∃ t : Fin cfg2.N, (cfg2.win 3).flush t = true ∧ i ∈ ((cfg2.win 3).blk t).view.set := by
  have hN : cfg2.N = 20 := N_2
  have hi0 : (i 0).val < 200000 := (i 0).isLt
  have hi1 : (i 1).val < 64 := (i 1).isLt
  refine ⟨⟨(i 0).val / 10000, by rw [hN]; omega⟩, flush2_3 _, ?_⟩
  rw [mem_blk]
  obtain ⟨-, -, -, -, -, -, e30, e31⟩ := idx_facts ⟨(i 0).val / 10000, by rw [hN]; omega⟩
  intro a
  match a with
  | ⟨0, _⟩ =>
    show win2_3.index _ (0 : Fin 2) * 10000 ≤ (i 0).val ∧ (i 0).val < win2_3.index _ (0 : Fin 2) * 10000 + 10000
    rw [e30]; dsimp only; omega
  | ⟨1, _⟩ =>
    show win2_3.index _ (1 : Fin 2) * 64 ≤ (i 1).val ∧ (i 1).val < win2_3.index _ (1 : Fin 2) * 64 + 64
    rw [e31]; omega

/-- The result array after the region: `G` of the arrays as the region finds them. -/
theorem final (c : Dev nD) :
    (dat2 V c).arrAt 3 cfg2.N = G (V c main_v21_0) (V c main_v36) (V c main_v37) :=
  (dat2 V c).arrAt_eq_of_cover 3 (G (V c main_v21_0) (V c main_v36) (V c main_v37)) (fun t _ => flushed_eq V c t) cover

end Cert.KernelIdeal.Region2

end
-- ==== Proof.KValue.lean ====
/-
  The idealized kernel's result, unfolded through its three regions and the host operations between them.

  Before the first region the host gathers rows of the features (through an index column with negative indices wrapped
  once) and narrows the features and the weights, which at the ideal instance changes nothing. The first region forms
  the nine matrix products. The host then scatter-adds their rows into a zero array (again through a wrapped index
  column) and lays the bias out as a row. The second region adds the bias and accumulates the two column moments. From
  these the host computes, per column, the mean, the scale `γ · rsqrt (Q/N − mean² + ε)` and the shift `β − mean · scale`,
  and lays them out as rows. The third region applies them and takes the positive part.

  Each stretch of host operations is a function of the buffers' contents before it, and each region replaces its result
  arrays by one function of its operand arrays (the three region modules). Composed, the result buffer ends holding
  `kernelOut` of the seven argument arrays.
-/
import proofs.«171181_j50354196578891_2_alg».proof.Proof.KRun
import proofs.«171181_j50354196578891_2_alg».proof.Proof.Region0
import proofs.«171181_j50354196578891_2_alg».proof.Proof.Region1
import proofs.«171181_j50354196578891_2_alg».proof.Proof.Region2
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.SL.Sem Idealize.ShloMosaic.ValueIdx Idealize.ShloMosaic.StableHlo

/-! ## The host's computations, as functions of arrays -/

/-- The gather's index column: an index below zero has the number of rows added once. -/
def gathIdx (a2 : IVec S9x150000 32) : IVec S9x150000x1 32 :=
  broadcastInDim S9x150000x1 ![0, 1] bcast_S9x150000_S9x150000x1_0_1
    (select (cmpi .slt a2 (broadcastInDim S9x150000 ![] bcast_S_S9x150000 (constantI S_ 32 0#32)))
      (addi a2 (broadcastInDim S9x150000 ![] bcast_S_S9x150000 (constantI S_ 32 200000#32))) a2)

/-- The gathered rows of the (narrowed) features. -/
def gathered (a1 : FVec Ideal S200000x64 .f32) (a2 : IVec S9x150000 32) : FVec Ideal S9x150000x64 .bf16 :=
  Host.gather gather_S200000x64_S9x150000x1_S9x150000x64_2_0_n_n_0_2_164 (truncf .bf16 a1 bitsLt_bf16_f32) (gathIdx a2)

/-- The narrowed weights (at the ideal instance, the weights). -/
def narrowW (a4 : FVec Ideal S9x64x64 .f32) : FVec Ideal S9x64x64 .bf16 := truncf .bf16 a4 bitsLt_bf16_f32

/-- The scatter's index column. -/
def scatIdx (a3 : IVec S9x150000 32) : IVec S1350000x1 32 :=
  broadcastInDim S1350000x1 ![0] bcast_S1350000_S1350000x1_0
    (select (cmpi .slt (shapeCast S1350000 a3 shapeCasts_S9x150000_S1350000)
        (broadcastInDim S1350000 ![] bcast_S_S1350000 (constantI S_ 32 0#32)))
      (addi (shapeCast S1350000 a3 shapeCasts_S9x150000_S1350000)
        (broadcastInDim S1350000 ![] bcast_S_S1350000 (constantI S_ 32 200000#32)))
      (shapeCast S1350000 a3 shapeCasts_S9x150000_S1350000))

/-- The rows of the products scatter-added into a zero array. -/
def scattered (a3 : IVec S9x150000 32) (contrib : FVec Ideal S9x150000x64 .f32) : FVec Ideal S200000x64 .f32 :=
  Host.scatterAdd scatter_S200000x64_S1350000x1_S1350000x64_1_0_0_1
    (broadcastInDim S200000x64 ![] bcast_S_S200000x64 (constant (F := Ideal) S_ .f32 0x00000000#32))
    (scatIdx a3) (shapeCast S1350000x64 contrib shapeCasts_S9x150000x64_S1350000x64)

/-- The divisor and the epsilon, as the host spreads them over a vector of 64. -/
abbrev nwVec : FVec Ideal S64 .f32 := broadcastInDim S64 ![] bcast_S_S64 (constant (F := Ideal) S_ .f32 0x48435000#32)
abbrev epVec : FVec Ideal S64 .f32 := broadcastInDim S64 ![] bcast_S_S64 (constant (F := Ideal) S_ .f32 0x3727C5AC#32)

/-- The column means from the row of column sums. -/
def hMean (S : FVec Ideal S1x64 .f32) : FVec Ideal S64 .f32 := Host.divf (shapeCast S64 S shapeCasts_S1x64_S64) nwVec

/-- The per-column scale. -/
def hScale (S Q : FVec Ideal S1x64 .f32) (g : FVec Ideal S64 .f32) : FVec Ideal S64 .f32 :=
  mulf g (Host.rsqrt (addf (subf (Host.divf (shapeCast S64 Q shapeCasts_S1x64_S64) nwVec) (mulf (hMean S) (hMean S))) epVec))

/-- The per-column shift. -/
def hShift (S Q : FVec Ideal S1x64 .f32) (g b : FVec Ideal S64 .f32) : FVec Ideal S64 .f32 :=
  subf b (mulf (hMean S) (hScale S Q g))

/-- The scattered convolution output, as a function of the arguments. -/
def kOut (a1 : FVec Ideal S200000x64 .f32) (a2 a3 : IVec S9x150000 32) (a4 : FVec Ideal S9x64x64 .f32) : FVec Ideal S200000x64 .f32 :=
  scattered a3 (Region0.G (gathered a1 a2) (narrowW a4))

/-- The bias as a row. -/
def kBias (a5 : FVec Ideal S64 .f32) : FVec Ideal S1x64 .f32 := shapeCast S1x64 a5 shapeCasts_S64_S1x64

/-- The kernel's result as one function of its seven float and index arguments. -/
def kernelOut (a1 : FVec Ideal S200000x64 .f32) (a2 a3 : IVec S9x150000 32) (a4 : FVec Ideal S9x64x64 .f32)
    (a5 a6 a7 : FVec Ideal S64 .f32) : FVec Ideal S200000x64 .f32 :=
  Region2.G (Region1.biased (kOut a1 a2 a3 a4) (kBias a5))
    (shapeCast S1x64 (hScale (Region1.colSum (kOut a1 a2 a3 a4) (kBias a5)) (Region1.colSumSq (kOut a1 a2 a3 a4) (kBias a5)) a6) shapeCasts_S64_S1x64)
    (shapeCast S1x64 (hShift (Region1.colSum (kOut a1 a2 a3 a4) (kBias a5)) (Region1.colSumSq (kOut a1 a2 a3 a4) (kBias a5)) a6 a7) shapeCasts_S64_S1x64)

/-! ## The boundaries' contents -/

variable (m : (ℓ : Loc nD τ sig) → Buf (Elt Ideal) ℓ) (ρ : Dev nD → PrngReg)

/-- Nothing before the second region writes `main_arg3`. -/
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- Nothing before the second region writes `main_arg5`. -/
theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- Nothing before the third region writes `main_arg6`. -/
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- Nothing before the third region writes `main_arg7`. -/
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- Entering the first region: the gathered rows and the narrowed weights. -/
theorem W1_main_v8 (c : Dev nD) : W1 m ρ c (Proc.devRef .tc main_v8)
    = gathered (m ((c : Thread nD τ).loc main_arg1)) (m ((c : Thread nD τ).loc main_arg2)) := by
  show StableHlo.after hostOps0 (W0 m ρ c) (Proc.devRef .tc main_v8) = _
  after_results
  rfl

theorem W1_main_v1 (c : Dev nD) : W1 m ρ c (Proc.devRef .tc main_v1)
    = narrowW (m ((c : Thread nD τ).loc main_arg4)) := by
  show StableHlo.after hostOps0 (W0 m ρ c) (Proc.devRef .tc main_v1) = _
  after_results
  rfl

/-- Leaving the first region: the nine products. -/
theorem W2_main_v9 (c : Dev nD) : W2 m ρ c (Proc.devRef .tc main_v9)
    = Region0.G (gathered (m ((c : Thread nD τ).loc main_arg1)) (m ((c : Thread nD τ).loc main_arg2)))
        (narrowW (m ((c : Thread nD τ).loc main_arg4))) := by
  refine (W2_arr m ρ c 2).trans ?_
  refine (Region0.final (V1 m ρ) c).trans ?_
  show Region0.G (W1 m ρ c (Proc.devRef .tc main_v8)) (W1 m ρ c (Proc.devRef .tc main_v1)) = _
  rw [W1_main_v8, W1_main_v1]

/-- Entering the second region: the scattered output and the bias row. -/
theorem W3_main_v19 (c : Dev nD) : W3 m ρ c (Proc.devRef .tc main_v19)
    = kOut (m ((c : Thread nD τ).loc main_arg1)) (m ((c : Thread nD τ).loc main_arg2)) (m ((c : Thread nD τ).loc main_arg3))
        (m ((c : Thread nD τ).loc main_arg4)) := by
  have e : W3 m ρ c (Proc.devRef .tc main_v19)
      = scattered (W2 m ρ c (Proc.devRef .tc main_arg3)) (W2 m ρ c (Proc.devRef .tc main_v9)) := by
    show StableHlo.after hostOps1 (W2 m ρ c) (Proc.devRef .tc main_v19) = _
    after_results
    rfl
  rw [e, W2_main_arg3, W2_main_v9]
  rfl

theorem W3_main_v20 (c : Dev nD) : W3 m ρ c (Proc.devRef .tc main_v20) = kBias (m ((c : Thread nD τ).loc main_arg5)) := by
  have e : W3 m ρ c (Proc.devRef .tc main_v20) = kBias (W2 m ρ c (Proc.devRef .tc main_arg5)) := by
    show StableHlo.after hostOps1 (W2 m ρ c) (Proc.devRef .tc main_v20) = _
    after_results
    rfl
  rw [e, W2_main_arg5]

/-- Leaving the second region: the biased output and its two column moments. -/
theorem W4_main_v21_0 (c : Dev nD) : W4 m ρ c (Proc.devRef .tc main_v21_0)
    = Region1.biased (W3 m ρ c (Proc.devRef .tc main_v19)) (W3 m ρ c (Proc.devRef .tc main_v20)) :=
  (W4_arr m ρ c 2).trans (Region1.final2 (V3 m ρ) c)

theorem W4_main_v21_1 (c : Dev nD) : W4 m ρ c (Proc.devRef .tc main_v21_1)
    = Region1.colSum (W3 m ρ c (Proc.devRef .tc main_v19)) (W3 m ρ c (Proc.devRef .tc main_v20)) :=
  (W4_arr m ρ c 3).trans (Region1.final3 (V3 m ρ) c)

theorem W4_main_v21_2 (c : Dev nD) : W4 m ρ c (Proc.devRef .tc main_v21_2)
    = Region1.colSumSq (W3 m ρ c (Proc.devRef .tc main_v19)) (W3 m ρ c (Proc.devRef .tc main_v20)) :=
  (W4_arr m ρ c 4).trans (Region1.final4 (V3 m ρ) c)

/-- Entering the third region: the biased output untouched, the scale and the shift as rows. -/
theorem W5_main_v21_0 (c : Dev nD) : W5 m ρ c (Proc.devRef .tc main_v21_0) = W4 m ρ c (Proc.devRef .tc main_v21_0) := by
  show StableHlo.after hostOps2 (W4 m ρ c) (Proc.devRef .tc main_v21_0) = _
  after_results

set_option maxHeartbeats 1000000 in
theorem W5_main_v36 (c : Dev nD) : W5 m ρ c (Proc.devRef .tc main_v36)
    = shapeCast S1x64 (hScale (W4 m ρ c (Proc.devRef .tc main_v21_1)) (W4 m ρ c (Proc.devRef .tc main_v21_2))
        (W4 m ρ c (Proc.devRef .tc main_arg6))) shapeCasts_S64_S1x64 := by
  show StableHlo.after hostOps2 (W4 m ρ c) (Proc.devRef .tc main_v36) = _
  after_results_simp
  rfl

set_option maxHeartbeats 1000000 in
theorem W5_main_v37 (c : Dev nD) : W5 m ρ c (Proc.devRef .tc main_v37)
    = shapeCast S1x64 (hShift (W4 m ρ c (Proc.devRef .tc main_v21_1)) (W4 m ρ c (Proc.devRef .tc main_v21_2))
        (W4 m ρ c (Proc.devRef .tc main_arg6)) (W4 m ρ c (Proc.devRef .tc main_arg7))) shapeCasts_S64_S1x64 := by
  show StableHlo.after hostOps2 (W4 m ρ c) (Proc.devRef .tc main_v37) = _
  after_results_simp
  rfl

/-- THE RESULT BUFFER after the run, as a function of the arguments' launch contents. -/
theorem result (c : Dev nD) : W6 m ρ c (Proc.devRef .tc main_v38)
    = kernelOut (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) := by
  refine (W6_arr m ρ c 3).trans ?_
  refine (Region2.final (V5 m ρ) c).trans ?_
  show Region2.G (W5 m ρ c (Proc.devRef .tc main_v21_0)) (W5 m ρ c (Proc.devRef .tc main_v36)) (W5 m ρ c (Proc.devRef .tc main_v37)) = _
  rw [W5_main_v21_0, W5_main_v36, W5_main_v37, W4_main_v21_0, W4_main_v21_1, W4_main_v21_2, W4_main_arg6, W4_main_arg7,
    W3_main_v19, W3_main_v20]
  rfl

/-- So the idealized kernel's run ends with the result buffer at `kernelOut` of the arguments, the arguments unchanged. -/
theorem run : θ_run defs (onTc (τ := τ) (main (F := Ideal))) ⟨m, fun _ => 0, ρ⟩ (fun r => ∀ c : Dev nD,
      r.2.mem ((c.tc : Thread nD τ).loc main_v38)
        = kernelOut (m ((c : Thread nD τ).loc main_arg1)) (m ((c : Thread nD τ).loc main_arg2)) (m ((c : Thread nD τ).loc main_arg3))
            (m ((c : Thread nD τ).loc main_arg4)) (m ((c : Thread nD τ).loc main_arg5)) (m ((c : Thread nD τ).loc main_arg6))
            (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result m ρ c), (h c).2⟩) (KRun.run m ρ)

end Cert.KernelIdeal.KValue

end
-- ==== Proof.LibRealOps.lean ====
/-
  The reals are closed under the ideal operations a normalisation uses.

  At the ideal instance a float is an extended real, and most laws that join two spellings of one formula (a variance,
  a product moved across a sum) hold only where every value is a REAL. These lemmas carry "is a real" through the
  operations, one value at a time, each naming the real the result is:
  * `rsqrt_coe_of_pos`: the reciprocal square root of a real `r > 0` is the real `(√r)⁻¹`, which is positive
    (`inv_sqrt_pos`); `rsqrt_add_eps`: so is that of `v + ε` for `v ≥ 0`, `ε > 0` (a variance plus its epsilon);
  * `coe_max`: the maximum of two reals; `dot_coe`: the inner product of two real rows; `sum_ones`: a sum of ones
    over a finite set is the number of its elements (a node's degree, counted by scattering ones);
  * `cmp_ogt_eq_one_iff`: the comparison `x > y` is the flag 1 exactly when `y < x`;
  * `gcn_coeff_coe`: the symmetric-normalisation coefficient `where(d > 0, rsqrt(max(d, 1)), 0)` of a real degree
    `d` is a real, and `gcn_coeff_nonneg`: it is non-negative — what lets it move across a neighbourhood sum.
-/
import Idealize.ShloMosaic.PureOps.Ideal
import Mathlib.Algebra.BigOperators.Fin
import Mathlib.Tactic.Linarith

noncomputable section

namespace ProofLib.RealOps

open Idealize.ShloMosaic

variable {ι : Type*}

/-- The inclusion of the reals in the extended reals commutes with finite sums. -/
theorem coe_sum (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The reciprocal square root of a positive real is the real `(√r)⁻¹`. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

/-- That real is positive. -/
theorem inv_sqrt_pos {r : ℝ} (hr : 0 < r) : 0 < (Real.sqrt r)⁻¹ := inv_pos.mpr (Real.sqrt_pos.mpr hr)

/-- The reciprocal square root of `v + ε`, `v ≥ 0` and `ε > 0` reals: a variance plus its epsilon. -/
theorem rsqrt_add_eps {v eps : ℝ} (hv : 0 ≤ v) (he : 0 < eps) :
    Ideal.rsqrt ((v : EReal) + (eps : EReal)) = (((Real.sqrt (v + eps))⁻¹ : ℝ) : EReal) := by
  rw [← EReal.coe_add, rsqrt_coe_of_pos (add_pos_of_nonneg_of_pos hv he)]

/-- The maximum of two reals, in the extended reals, is their real maximum. -/
theorem coe_max (x y : ℝ) : ((max x y : ℝ) : EReal) = max (x : EReal) (y : EReal) :=
  EReal.coe_strictMono.monotone.map_max

/-- The inner product of two real rows is the real inner product. -/
theorem dot_coe (s : Finset ι) (a b : ι → ℝ) :
    ∑ k ∈ s, (a k : EReal) * (b k : EReal) = ((∑ k ∈ s, a k * b k : ℝ) : EReal) := by
  rw [coe_sum]; exact Finset.sum_congr rfl fun k _ => (EReal.coe_mul _ _).symm

/-- A sum of ones over a finite set is the number of its elements. -/
theorem sum_ones (s : Finset ι) : ∑ _i ∈ s, (1 : EReal) = ((s.card : ℝ) : EReal) := by
  have h1 : ∑ _i ∈ s, (1 : EReal) = ∑ _i ∈ s, ((1 : ℝ) : EReal) := by simp
  rw [h1, ← coe_sum]; simp

/-- The comparison `x > y` is the flag 1 exactly when `y < x`. -/
theorem cmp_ogt_eq_one_iff (x y : EReal) : Ideal.cmp .ogt x y = 1#1 ↔ y < x := by
  unfold Ideal.cmp
  by_cases h : y < x <;> simp [h]

/-- The symmetric-normalisation coefficient of a real degree `d`: `(√(max d 1))⁻¹` where `d > 0`, else `0`. -/
def gcnCoeff (d : ℝ) : ℝ := if 0 < d then (Real.sqrt (max d 1))⁻¹ else 0

/-- `where(d > 0, rsqrt(max(d, 1)), 0)` at a real `d` is the real `gcnCoeff d`. -/
theorem gcn_coeff_coe (d : ℝ) :
    Scalar.select (Ideal.cmp .ogt (d : EReal) 0) (Ideal.rsqrt (max (d : EReal) 1)) (0 : EReal) = ((gcnCoeff d : ℝ) : EReal) := by
  have h1 : (1 : EReal) = ((1 : ℝ) : EReal) := EReal.coe_one.symm
  have hpos : (0 : ℝ) < max d 1 := lt_of_lt_of_le one_pos (le_max_right d 1)
  unfold Scalar.select gcnCoeff
  by_cases hd : 0 < d
  · have hc : Ideal.cmp .ogt (d : EReal) 0 = (1 : BitVec 1) := (cmp_ogt_eq_one_iff _ _).mpr (by exact_mod_cast hd)
    rw [if_pos hc, if_pos hd, h1, ← coe_max, rsqrt_coe_of_pos hpos]
  · have hc : ¬ Ideal.cmp .ogt (d : EReal) 0 = (1 : BitVec 1) := fun e => hd (by exact_mod_cast (cmp_ogt_eq_one_iff _ _).mp e)
    rw [if_neg hc, if_neg hd, EReal.coe_zero]

/-- The coefficient is non-negative. -/
theorem gcn_coeff_nonneg (d : ℝ) : 0 ≤ gcnCoeff d := by
  unfold gcnCoeff
  split
  · exact inv_nonneg.mpr (Real.sqrt_nonneg _)
  · exact le_rfl

end ProofLib.RealOps

end
-- ==== Proof.LibBnAffine.lean ====
/-
  Training-mode batch normalisation of a matrix, followed by a per-column affine map and a positive part, in two
  spellings, on the extended reals.

  For a matrix `B` of `N` rows and `C` columns, a column `c` has mean `μ = (Σ_k B k c) / N` and biased variance `v`.
  * The centred spelling (`centred`): `max (((B n c − μ) · rsqrt (v + ε)) · γ c + β c) 0` with
    `v = (Σ_k (B k c − μ)²) / N`, the mean of the squared deviations.
  * The folded spelling (`folded`): from the two column moments `S c = Σ_k B k c` and `Q c = Σ_k (B k c)²` one
    scale `s = γ c · rsqrt (Q c / N − μ² + ε)` and one shift `β c − μ · s` per column, then `max (B n c · s + shift) 0`.
  Over the reals `Q/N − μ² = (Σ (B − μ)²)/N` and `x·(γ·r) + (β − μ·(γ·r)) = ((x − μ)·r)·γ + β`, so the two agree
  (`folded_eq_centred`) when every entry of `B`, `γ`, `β` is a real, `N > 0` and `ε > 0` is a real: then `v + ε > 0` and
  its reciprocal square root is a real too. With an infinite entry both laws fail (`⊤ − ⊤`), which is why the entries
  are asked to be real. The zero a sum starts from and the zero of the positive part are passed as `z`, the divisor as
  `nw`, the epsilon as `ep`: a program spells them as float words, and the hypotheses say what they denote.
-/
import Idealize.ShloMosaic.PureOps.Ideal
import Idealize.ShloMosaic.Lib.ValueIdx
import proofs.«171181_j50354196578891_2_alg».proof.Proof.LibBatchNormVar
import proofs.«171181_j50354196578891_2_alg».proof.Proof.LibRealOps

noncomputable section

open scoped BigOperators

namespace Cert.Lib.BnAffine

open Idealize.ShloMosaic Idealize.ShloMosaic.ValueIdx

variable {N C : Nat}

/-- The mean of column `c` as a program computes it: the sum started from `z`, divided by `nw`. -/
def mean (z nw : EReal) (B : (⟨2, ![N, C]⟩ : Shape).Idx → EReal) (c : Fin C) : EReal :=
  Ideal.div (z + ∑ k : Fin N, B (ix2 k c)) nw

/-- The biased variance of column `c` as a program computes it from the deviations: their squares summed from `z`,
    divided by `nw`. -/
def var (z nw : EReal) (B : (⟨2, ![N, C]⟩ : Shape).Idx → EReal) (c : Fin C) : EReal :=
  Ideal.div (z + ∑ k : Fin N, (B (ix2 k c) - mean z nw B c) * (B (ix2 k c) - mean z nw B c)) nw

/-- The centred spelling at entry `(n, c)`. -/
def centred (z nw ep : EReal) (B : (⟨2, ![N, C]⟩ : Shape).Idx → EReal) (g b : (⟨1, ![C]⟩ : Shape).Idx → EReal)
    (n : Fin N) (c : Fin C) : EReal :=
  max (((B (ix2 n c) - mean z nw B c) * Ideal.rsqrt (var z nw B c + ep)) * g (ix1 c) + b (ix1 c)) z

/-- The per-column scale of the folded spelling, from the two column moments `S` and `Q`. -/
def scale (nw ep : EReal) (S Q : Fin C → EReal) (g : (⟨1, ![C]⟩ : Shape).Idx → EReal) (c : Fin C) : EReal :=
  g (ix1 c) * Ideal.rsqrt (Ideal.div (Q c) nw - Ideal.div (S c) nw * Ideal.div (S c) nw + ep)

/-- The per-column shift of the folded spelling. -/
def shift (nw ep : EReal) (S Q : Fin C → EReal) (g b : (⟨1, ![C]⟩ : Shape).Idx → EReal) (c : Fin C) : EReal :=
  b (ix1 c) - Ideal.div (S c) nw * scale nw ep S Q g c

/-- The folded spelling at entry `(n, c)`. -/
def folded (z nw ep : EReal) (B : (⟨2, ![N, C]⟩ : Shape).Idx → EReal) (S Q : Fin C → EReal)
    (g b : (⟨1, ![C]⟩ : Shape).Idx → EReal) (n : Fin N) (c : Fin C) : EReal :=
  max (B (ix2 n c) * scale nw ep S Q g c + shift nw ep S Q g b c) z

/-- THE TWO SPELLINGS AGREE on real entries: `z` denotes `0`, `nw` the number of rows `N > 0`, `ep` a real `ε > 0`,
    and `S`, `Q` are the column sums of the entries and of their squares. -/
theorem folded_eq_centred (z nw ep : EReal) (B : (⟨2, ![N, C]⟩ : Shape).Idx → EReal) (S Q : Fin C → EReal)
    (g b : (⟨1, ![C]⟩ : Shape).Idx → EReal)
    (hz : z = 0) (hN : 0 < N) (hnw : nw = (((N : ℕ) : ℝ) : EReal)) (hep : ∃ e : ℝ, 0 < e ∧ ep = (e : EReal))
    (hB : ∀ i, ∃ r : ℝ, B i = (r : EReal)) (hg : ∀ i, ∃ r : ℝ, g i = (r : EReal)) (hb : ∀ i, ∃ r : ℝ, b i = (r : EReal))
    (hS : ∀ c, S c = ∑ k : Fin N, B (ix2 k c)) (hQ : ∀ c, Q c = ∑ k : Fin N, B (ix2 k c) * B (ix2 k c))
    (n : Fin N) (c : Fin C) :
    folded z nw ep B S Q g b n c = centred z nw ep B g b n c := by
  obtain ⟨e, he, rfl⟩ := hep
  subst hz
  subst hnw
  choose f hf using hB
  obtain ⟨γ, hγ⟩ := hg (ix1 c)
  obtain ⟨β, hβ⟩ := hb (ix1 c)
  -- the number of rows, as a positive real
  have hNr : (0 : ℝ) < ((N : ℕ) : ℝ) := by exact_mod_cast hN
  have hN0 : ((N : ℕ) : ℝ) ≠ 0 := hNr.ne'
  have hcard : (Fintype.card (Fin N) : ℝ) = ((N : ℕ) : ℝ) := by simp
  -- column `c` as a real column, its two moments and its mean
  have hcol : ∀ k : Fin N, B (ix2 k c) = ((f (ix2 k c) : ℝ) : EReal) := fun k => hf _
  have eS : ∑ k : Fin N, B (ix2 k c) = ((∑ k : Fin N, f (ix2 k c) : ℝ) : EReal) := by
    rw [ProofLib.BatchNorm.coe_sum]; exact Finset.sum_congr rfl fun k _ => hcol k
  have eQ : ∑ k : Fin N, B (ix2 k c) * B (ix2 k c)
      = ((∑ k : Fin N, f (ix2 k c) * f (ix2 k c) : ℝ) : EReal) := by
    rw [ProofLib.BatchNorm.coe_sum]
    exact Finset.sum_congr rfl fun k _ => by rw [hcol k, EReal.coe_mul]
  have eμ : mean 0 (((N : ℕ) : ℝ) : EReal) B c
      = (((∑ k : Fin N, f (ix2 k c)) / ((N : ℕ) : ℝ) : ℝ) : EReal) := by
    unfold mean
    rw [zero_add, eS, ProofLib.BatchNorm.div_coe_coe _ hN0]
  -- the sum of the squared deviations from that mean
  have eD : ∑ k : Fin N, (B (ix2 k c) - (((∑ j : Fin N, f (ix2 j c)) / ((N : ℕ) : ℝ) : ℝ) : EReal))
        * (B (ix2 k c) - (((∑ j : Fin N, f (ix2 j c)) / ((N : ℕ) : ℝ) : ℝ) : EReal))
      = ((∑ k : Fin N, (f (ix2 k c) - (∑ j : Fin N, f (ix2 j c)) / ((N : ℕ) : ℝ))
          * (f (ix2 k c) - (∑ j : Fin N, f (ix2 j c)) / ((N : ℕ) : ℝ)) : ℝ) : EReal) := by
    rw [ProofLib.BatchNorm.coe_sum]
    exact Finset.sum_congr rfl fun k _ => by rw [hcol k, EReal.coe_mul, EReal.coe_sub]
  -- both variances are one non-negative real, so both reciprocal square roots are one real
  have hvar := ProofLib.BatchNorm.real_var_eq (fun k : Fin N => f (ix2 k c)) hN0 hcard
  have hnn := ProofLib.BatchNorm.real_var_nonneg (fun k : Fin N => f (ix2 k c))
    ((∑ j : Fin N, f (ix2 j c)) / ((N : ℕ) : ℝ)) hNr
  unfold folded centred var shift scale
  rw [eμ, zero_add, eD, hS c, hQ c, eS, eQ, ProofLib.BatchNorm.div_coe_coe _ hN0,
    ProofLib.BatchNorm.div_coe_coe _ hN0, ProofLib.BatchNorm.div_coe_coe _ hN0, ← EReal.coe_mul, ← EReal.coe_sub,
    hvar, ProofLib.RealOps.rsqrt_add_eps hnn he, hcol n, hγ, hβ]
  -- what is left is an identity of reals: x·(γ·r) + (β − μ·(γ·r)) = ((x − μ)·r)·γ + β
  simp only [← EReal.coe_mul, ← EReal.coe_sub, ← EReal.coe_add]
  congr 2
  ring

end Cert.Lib.BnAffine

end
-- ==== Proof.RefValue.lean ====
/-
  The reference's result at an entry.

  The reference adds the bias to the scattered output (its stage `B`), takes each column's mean, the mean of the squared
  deviations from it, the reciprocal square root of that plus the epsilon, and returns
  `max (((B n c − mean c) · rsqrt …) · γ c + β c) 0`. Its broadcasts read a vector of 64 at the entry's column, and its two
  sums over the 200000 rows read the array down a column. So at entry `(n, c)` the result is the centred spelling of the
  batch normalisation of `B`.
-/
import proofs.«171181_j50354196578891_2_alg».proof.Proof.Gen.ReferenceIdeal.Read
import proofs.«171181_j50354196578891_2_alg».proof.Proof.LibBnAffine

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.ValueIdx

/-! ## Where the broadcasts and the sums read -/

theorem e19 (r : Fin 200000) (c : Fin 64) : idx_main_v18 (idx_main_v19 (ix2 r c)) = ix1 c :=
  funext fun a => match a with | ⟨0, _⟩ => rfl
theorem e25 (r : Fin 200000) (c : Fin 64) : idx_main_v24 (idx_main_v25 (ix2 r c)) = ix1 c :=
  funext fun a => match a with | ⟨0, _⟩ => rfl
theorem e32 (r : Fin 200000) (c : Fin 64) : idx_main_v31 (idx_main_v32 (ix2 r c)) = ix1 c :=
  funext fun a => match a with | ⟨0, _⟩ => rfl
theorem e38 (r : Fin 200000) (c : Fin 64) : idx_main_v37 (idx_main_v38 (ix2 r c)) = ix1 c :=
  funext fun a => match a with | ⟨0, _⟩ => rfl
theorem e41 (r : Fin 200000) (c : Fin 64) : idx_main_v40 (idx_main_v41 (ix2 r c)) = ix1 c :=
  funext fun a => match a with | ⟨0, _⟩ => rfl
theorem e44 (r : Fin 200000) (c : Fin 64) : idx_main_v43 (idx_main_v44 (ix2 r c)) = ix1 c :=
  funext fun a => match a with | ⟨0, _⟩ => rfl
theorem e21 (c : Fin 64) (k : Fin 200000) : idx_main_v21 (ix1 c) k = ix2 k c :=
  funext fun a => match a with | ⟨0, _⟩ => rfl | ⟨1, _⟩ => rfl
theorem e28 (c : Fin 64) (k : Fin 200000) : idx_main_v28 (ix1 c) k = ix2 k c :=
  funext fun a => match a with | ⟨0, _⟩ => rfl | ⟨1, _⟩ => rfl

/-- The bias spread over the array reads the bias vector at the entry's column. -/
theorem bias_apply (x5 : (⟨S64, .f32⟩ : BufTy).Contents (Elt Ideal)) (r : Fin 200000) (c : Fin 64) :
    val_main_v19 (F := Ideal) x5 (ix2 r c) = x5 (ix1 c) := by
  rw [val_main_v19_apply, val_main_v18_apply, e19]

/-- The mean stage at column `c`. -/
theorem mean_apply (x1 : (⟨S200000x64, .f32⟩ : BufTy).Contents (Elt Ideal)) (x2 x3 : (⟨S9x150000, .i32⟩ : BufTy).Contents (Elt Ideal)) (x4 : (⟨S9x64x64, .f32⟩ : BufTy).Contents (Elt Ideal)) (x5 : (⟨S64, .f32⟩ : BufTy).Contents (Elt Ideal)) (c : Fin 64) :
    val_main_v23 (F := Ideal) x1 x2 x3 x4 x5 (ix1 c) = Cert.Lib.BnAffine.mean (Ideal.ofBits .f32 0x00000000#32) (Ideal.ofBits .f32 0x48435000#32) (val_main_v20 (F := Ideal) x1 x2 x3 x4 x5) c := by
  rw [val_main_v23_apply, val_main_v21_apply, val_main_v22_apply, val_main_cst_4_apply, val_main_cst_3_apply]
  unfold Cert.Lib.BnAffine.mean
  rw [Ideal.hostDivf_def, Ideal.ofBits_def, Ideal.ofBits_def]
  refine congrArg (fun s => Ideal.div ((Ideal.ofBits .f32 0x00000000#32) + s) (Ideal.ofBits .f32 0x48435000#32)) ?_
  exact Finset.sum_congr rfl fun k _ => by rw [e21]

/-- The deviation stages at entry `(r, c)` (the reference computes them twice). -/
theorem dev_apply (x1 : (⟨S200000x64, .f32⟩ : BufTy).Contents (Elt Ideal)) (x2 x3 : (⟨S9x150000, .i32⟩ : BufTy).Contents (Elt Ideal)) (x4 : (⟨S9x64x64, .f32⟩ : BufTy).Contents (Elt Ideal)) (x5 : (⟨S64, .f32⟩ : BufTy).Contents (Elt Ideal)) (r : Fin 200000) (c : Fin 64) :
    val_main_v26 (F := Ideal) x1 x2 x3 x4 x5 (ix2 r c)
      = (val_main_v20 (F := Ideal) x1 x2 x3 x4 x5) (ix2 r c) - Cert.Lib.BnAffine.mean (Ideal.ofBits .f32 0x00000000#32) (Ideal.ofBits .f32 0x48435000#32) (val_main_v20 (F := Ideal) x1 x2 x3 x4 x5) c := by
  rw [val_main_v26_apply, val_main_v25_apply, val_main_v24_apply, e25, mean_apply, Ideal.subf_def]

theorem dev'_apply (x1 : (⟨S200000x64, .f32⟩ : BufTy).Contents (Elt Ideal)) (x2 x3 : (⟨S9x150000, .i32⟩ : BufTy).Contents (Elt Ideal)) (x4 : (⟨S9x64x64, .f32⟩ : BufTy).Contents (Elt Ideal)) (x5 : (⟨S64, .f32⟩ : BufTy).Contents (Elt Ideal)) (r : Fin 200000) (c : Fin 64) :
    val_main_v33 (F := Ideal) x1 x2 x3 x4 x5 (ix2 r c)
      = (val_main_v20 (F := Ideal) x1 x2 x3 x4 x5) (ix2 r c) - Cert.Lib.BnAffine.mean (Ideal.ofBits .f32 0x00000000#32) (Ideal.ofBits .f32 0x48435000#32) (val_main_v20 (F := Ideal) x1 x2 x3 x4 x5) c := by
  rw [val_main_v33_apply, val_main_v32_apply, val_main_v31_apply, e32, mean_apply, Ideal.subf_def]

/-- The variance stage at column `c`. -/
theorem var_apply (x1 : (⟨S200000x64, .f32⟩ : BufTy).Contents (Elt Ideal)) (x2 x3 : (⟨S9x150000, .i32⟩ : BufTy).Contents (Elt Ideal)) (x4 : (⟨S9x64x64, .f32⟩ : BufTy).Contents (Elt Ideal)) (x5 : (⟨S64, .f32⟩ : BufTy).Contents (Elt Ideal)) (c : Fin 64) :
    val_main_v30 (F := Ideal) x1 x2 x3 x4 x5 (ix1 c) = Cert.Lib.BnAffine.var (Ideal.ofBits .f32 0x00000000#32) (Ideal.ofBits .f32 0x48435000#32) (val_main_v20 (F := Ideal) x1 x2 x3 x4 x5) c := by
  rw [val_main_v30_apply, val_main_v28_apply, val_main_v29_apply, val_main_cst_6_apply, val_main_cst_5_apply]
  unfold Cert.Lib.BnAffine.var
  rw [Ideal.hostDivf_def, Ideal.ofBits_def, Ideal.ofBits_def]
  refine congrArg (fun s => Ideal.div ((Ideal.ofBits .f32 0x00000000#32) + s) (Ideal.ofBits .f32 0x48435000#32)) ?_
  exact Finset.sum_congr rfl fun k _ => by rw [e28, val_main_v27_apply, dev_apply, Ideal.mulf_def]

/-- The reciprocal-square-root stage at column `c`. -/
theorem rs_apply (x1 : (⟨S200000x64, .f32⟩ : BufTy).Contents (Elt Ideal)) (x2 x3 : (⟨S9x150000, .i32⟩ : BufTy).Contents (Elt Ideal)) (x4 : (⟨S9x64x64, .f32⟩ : BufTy).Contents (Elt Ideal)) (x5 : (⟨S64, .f32⟩ : BufTy).Contents (Elt Ideal)) (c : Fin 64) :
    val_main_v36 (F := Ideal) x1 x2 x3 x4 x5 (ix1 c)
      = Ideal.rsqrt (Cert.Lib.BnAffine.var (Ideal.ofBits .f32 0x00000000#32) (Ideal.ofBits .f32 0x48435000#32) (val_main_v20 (F := Ideal) x1 x2 x3 x4 x5) c + (Ideal.ofBits .f32 0x3727C5AC#32)) := by
  rw [val_main_v36_apply, val_main_v35_apply, val_main_v34_apply, val_main_cst_7_apply, var_apply,
    Ideal.hostUnary_rsqrt_def, Ideal.addf_def, Ideal.ofBits_def]

/-- THE REFERENCE'S RESULT at entry `(n, c)`: the centred spelling over its biased stage. -/
theorem out_apply (x1 : (⟨S200000x64, .f32⟩ : BufTy).Contents (Elt Ideal)) (x2 x3 : (⟨S9x150000, .i32⟩ : BufTy).Contents (Elt Ideal)) (x4 : (⟨S9x64x64, .f32⟩ : BufTy).Contents (Elt Ideal)) (x5 x6 x7 : (⟨S64, .f32⟩ : BufTy).Contents (Elt Ideal)) (n : Fin 200000) (c : Fin 64) :
    val_main_v47 (F := Ideal) x1 x2 x3 x4 x5 x6 x7 (ix2 n c)
      = Cert.Lib.BnAffine.centred (Ideal.ofBits .f32 0x00000000#32) (Ideal.ofBits .f32 0x48435000#32) (Ideal.ofBits .f32 0x3727C5AC#32) (val_main_v20 (F := Ideal) x1 x2 x3 x4 x5) x6 x7 n c := by
  unfold Cert.Lib.BnAffine.centred
  rw [val_main_v47_apply, val_main_v46_apply, val_main_cst_8_apply, val_main_v45_apply, val_main_v44_apply,
    val_main_v43_apply, e44, val_main_v42_apply, val_main_v41_apply, val_main_v40_apply, e41, val_main_v39_apply,
    val_main_v38_apply, val_main_v37_apply, e38, rs_apply, dev'_apply, Ideal.maximumf_def, Ideal.addf_def,
    Ideal.mulf_def, Ideal.mulf_def, Ideal.ofBits_def]

end Cert.ReferenceIdeal.RefValue

end
-- ==== Proof.Consts.lean ====
/-
  The three float words the two programs spell on the host, as the extended reals they denote at the ideal instance:
  `+0.0` is `0`; the divisor `200000.0` is the real 200000 (sign 0, exponent field 144, significand 12800000 / 2²³, so
  `12800000 · 2⁻²³ · 2¹⁷`); and the epsilon, the single-precision word nearest `10⁻⁵`, is the positive real
  `10995116 / 2⁴⁰` (exponent field 110, significand 10995116 / 2²³). Nothing else about the epsilon is used than that it
  is a positive real.
-/
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_rows : Ideal.ofBits .f32 0x48435000#32 = (((200000 : ℕ) : ℝ) : EReal) := by
  simp [Ideal.ofBits, Ideal.ieee, -EReal.coe_mul]; norm_num

theorem ofBits_eps : ∃ e : ℝ, 0 < e ∧ Ideal.ofBits .f32 0x3727C5AC#32 = (e : EReal) := by
  refine ⟨10995116 / 2 ^ 40, by norm_num, ?_⟩
  simp [Ideal.ofBits, Ideal.ieee, -EReal.coe_mul]; norm_num

end Cert.Consts

end
-- ==== Proof.LibRowScatter.lean ====
/-
  A row gather and a row scatter-add, read at an index.

  For a table `x` of `N` rows and `C` columns and a column `idx` of `M` integer words:

  * the gather of rows takes result row `e` from the operand row `idx[e]` read as a signed integer and clamped into
    `[0, N − 1]`: entry `(e, c)` of the result is `x (gatherRow idx e, c)`;
  * the scatter-add of rows adds update row `e` into the operand row `idx[e]` read as a signed integer and not
    clamped (an update whose row is outside `[0, N − 1]` is dropped): entry `(n, c)` of the result is
    `x (n, c) + ∑ e ∈ landsOn idx N n, upd (e, c)`, the sum over the update rows whose index is `n`.

  Neither the row `gatherRow idx e` nor the set `landsOn idx N n` depends on the number of columns or on the entries.
-/
import Idealize.ShloMosaic.Lib.ValueIdx
import Idealize.ShloMosaic.PureOps.Ideal.Laws
import Idealize.ShloMosaic.Lib.Pipeline.Value

noncomputable section

open scoped BigOperators

namespace Cert.Lib.RowScatter

open Idealize.ShloMosaic Idealize.ShloMosaic.ValueIdx

/-! ## The gather of rows -/

section Gather
variable {α : Type}

/-- The dimension numbers of a gather of whole rows: operand `[N, C]`, start indices `[M, 1]`, result `[M, C]`;
    the result's axis 1 is the offset axis, the operand's axis 0 is collapsed and is the one the start index names,
    the index vector lies along axis 1 of the start indices, and a slice is one row, `1 × C`. Their conditions `wf`
    are decided on literal shapes. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The operand row that result row `e` reads: the word `idx (e, 0)` as a signed integer, negative values taken to
    `0`, then cut to at most `N − 1`. It depends on neither the number of columns nor the entries. -/
def gatherRow (N : Nat) (hN : 0 < N) {M w : Nat} (idx : IVec ⟨2, ![M, 1]⟩ w) (e : Fin M) : Fin N :=
  ⟨min (idx (ix2 e (0 : Fin 1))).toInt.toNat (N - 1), by omega⟩

/-- On the row axis the operand index of result entry `(e, c)` is the clamped start index: no batching coordinate,
    and no offset coordinate on a collapsed axis. -/
theorem gather_operandIdx_zero {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (c : Fin C) :
    ((rowGatherDims N M C wf).operandIdx (ix2 e c) idx 0).val = min (idx (ix2 e (0 : Fin 1))).toInt.toNat (N - 1) := by
  show (rowGatherDims N M C wf).start (ix2 e c) idx 0 + (rowGatherDims N M C wf).batchCoord (ix2 e c) 0
    + (rowGatherDims N M C wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N M C wf).startIndexMap from List.mem_singleton.mpr rfl)]
  have hsi : (rowGatherDims N M C wf).siIdx (ix2 e c) ⟨List.idxOf (0 : Fin 2) (rowGatherDims N M C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the column axis the operand index of result entry `(e, c)` is `c`: the start is `0` on an axis the start
    index does not name, and the offset coordinate is the result's column. -/
theorem gather_operandIdx_one {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (c : Fin C) :
    ((rowGatherDims N M C wf).operandIdx (ix2 e c) idx 1).val = c.val := by
  show (rowGatherDims N M C wf).start (ix2 e c) idx 1 + (rowGatherDims N M C wf).batchCoord (ix2 e c) 1
    + (rowGatherDims N M C wf).offCoord (ix2 e c) 1 = _
  rw [GatherDims.batchCoord_eq_zero _ _ _ List.not_mem_nil]
  have hs : (rowGatherDims N M C wf).start (ix2 e c) idx 1 = 0 := by
    unfold GatherDims.start
    rw [dif_neg (fun h => absurd (List.mem_singleton.mp h) (show ¬ ((1 : Fin 2) = 0) by decide))]
  rw [hs]
  simp only [Nat.add_zero, Nat.zero_add]
  unfold GatherDims.offCoord
  rw [dif_pos ((GatherDims.mem_sKept _ _).mpr
    ⟨fun h => absurd (List.mem_singleton.mp h) (show ¬ ((1 : Fin 2) = 0) by decide), List.not_mem_nil⟩)]
  rfl

/-- THE GATHER OF ROWS READ AT `(e, c)`: the operand at row `gatherRow N hN idx e` — the start index `idx (e, 0)` read
    signed and clamped into `[0, N − 1]` — and column `c`. -/
theorem gather_rows_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (c : Fin C) :
    Host.gather (rowGatherDims N M C wf) x idx (ix2 e c) = x (ix2 (gatherRow N hN idx e) c) := by
  unfold Host.gather
  congr 1
  funext a
  match a with
  | ⟨0, _⟩ => exact Fin.ext (gather_operandIdx_zero wf idx e c)
  | ⟨1, _⟩ => exact Fin.ext (gather_operandIdx_one wf idx e c)

end Gather

/-! ## The scatter-add of rows -/

section Scatter

/-- The dimension numbers of a scatter of whole rows: operand `[N, C]`, scatter indices `[M, 1]`, updates `[M, C]`;
    the updates' axis 1 is the window axis, the operand's axis 0 is inserted and is the one the scatter index names,
    and the index vector lies along axis 1 of the scatter indices. Their conditions `wf` are decided on literal
    shapes. -/
abbrev rowScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- The update rows that land on operand row `n`: the rows `e` whose index word `idx (e, 0)`, read as a signed
    integer and not clamped, is `n`. It depends on neither the number of columns nor the entries. -/
def landsOn {M w : Nat} (idx : IVec ⟨2, ![M, 1]⟩ w) (N : Nat) (n : Fin N) : Finset (Fin M) :=
  Finset.univ.filter (fun e => (idx (ix2 e (0 : Fin 1))).toInt = (n.val : Int))

/-- An axis is among the kept axes exactly when it is not among the removed ones. -/
theorem mem_kept {s : Shape} (axes : List (Fin s.rank)) (a : Fin s.rank) : a ∈ s.kept axes ↔ a ∉ axes := by
  simp [Shape.kept, List.mem_filter, List.mem_finRange]

/-- An update index `j` lands at the operand index `i` exactly when, on every axis, the signed start plus the window
    coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hb
      have h' := Option.some.inj h
      have h2 : (d.start j idx a + (d.window j a : Int)).toNat = (i a).val := congrArg Fin.val (congrFun h' a)
      have := hb a
      omega
    · cases h
  · intro h
    have hb : ∀ a, 0 ≤ d.start j idx a + (d.window j a : Int) ∧ d.start j idx a + (d.window j a : Int) < s.size a := by
      intro a
      rw [h a]
      exact ⟨Int.natCast_nonneg _, by exact_mod_cast (i a).isLt⟩
    rw [dif_pos hb]
    congr 1
    funext a
    apply Fin.ext
    show (d.start j idx a + (d.window j a : Int)).toNat = (i a).val
    rw [h a]
    exact Int.toNat_natCast _

/-- On the row axis the start of update entry `(e, c)` is the index word `idx (e, 0)` read as a signed integer. -/
theorem scatter_start_zero {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (rowScatterDims N M C wf).start (ix2 e c) idx 0 = (idx (ix2 e (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 e c)
      ⟨List.idxOf (0 : Fin 2) (rowScatterDims N M C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the scatter index does not name, the start is `0`. -/
theorem scatter_start_one {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (rowScatterDims N M C wf).start (ix2 e c) idx 1 = 0 := by
  unfold ScatterDims.start
  rw [dif_neg (fun h => absurd (List.mem_singleton.mp h) (show ¬ ((1 : Fin 2) = 0) by decide))]

/-- On the row axis, an inserted one, the window coordinate is `0`. -/
theorem scatter_window_zero {N M C : Nat} (wf : ScatterDims.WF ⟨2, ![N, C]⟩ ⟨2, ![M, 1]⟩ ⟨2, ![M, C]⟩ [1] [0] [0] 1)
    (e : Fin M) (c : Fin C) :
    (rowScatterDims N M C wf).window (ix2 e c) 0 = 0 := by
  unfold ScatterDims.window
  rw [dif_neg (fun h => (mem_kept _ _).mp h (List.mem_singleton.mpr rfl))]

/-- On the column axis the window coordinate of update entry `(e, c)` is `c`. -/
theorem scatter_window_one {N M C : Nat} (wf : ScatterDims.WF ⟨2, ![N, C]⟩ ⟨2, ![M, 1]⟩ ⟨2, ![M, C]⟩ [1] [0] [0] 1)
    (e : Fin M) (c : Fin C) :
    (rowScatterDims N M C wf).window (ix2 e c) 1 = c.val := by
  unfold ScatterDims.window
  rw [dif_pos ((mem_kept _ _).mpr
    (fun h => absurd (List.mem_singleton.mp h) (show ¬ ((1 : Fin 2) = 0) by decide)))]
  rfl

/-- Update entry `(e, c')` lands at operand entry `(n, c)` exactly when the columns agree and the signed index word
    of row `e` is `n`. -/
theorem resultIdx?_rows {N M C w : Nat} (wf : ScatterDims.WF ⟨2, ![N, C]⟩ ⟨2, ![M, 1]⟩ ⟨2, ![M, C]⟩ [1] [0] [0] 1)
    (idx : IVec ⟨2, ![M, 1]⟩ w) (e : Fin M) (c' c : Fin C) (n : Fin N) :
    (rowScatterDims N M C wf).resultIdx? (ix2 e c') idx = some (ix2 n c)
      ↔ c' = c ∧ (idx (ix2 e (0 : Fin 1))).toInt = (n.val : Int) := by
  rw [resultIdx?_eq_some_iff]
  rw [Fin.forall_fin_two]
  rw [scatter_start_zero, scatter_window_zero, scatter_start_one, scatter_window_one]
  show ((idx (ix2 e (0 : Fin 1))).toInt + ((0 : Nat) : Int) = (n.val : Int)
    ∧ (0 : Int) + (c'.val : Int) = (c.val : Int)) ↔ _
  constructor
  · rintro ⟨h0, h1⟩
    exact ⟨Fin.ext (by omega), by omega⟩
  · rintro ⟨rfl, h⟩
    exact ⟨by omega, by omega⟩

/-- THE SCATTER-ADD OF ROWS READ AT `(n, c)`: the operand's entry plus the sum, over the update rows `e` whose signed
    index word is `n`, of the update's entry `(e, c)`. -/
theorem scatterAdd_rows_apply {N M C w : Nat}
    (wf : ScatterDims.WF ⟨2, ![N, C]⟩ ⟨2, ![M, 1]⟩ ⟨2, ![M, C]⟩ [1] [0] [0] 1)
    (x : FVec Ideal ⟨2, ![N, C]⟩ .f32) (idx : IVec ⟨2, ![M, 1]⟩ w) (upd : FVec Ideal ⟨2, ![M, C]⟩ .f32)
    (n : Fin N) (c : Fin C) :
    Host.scatterAdd (F := Ideal) (rowScatterDims N M C wf) x idx upd (ix2 n c)
      = x (ix2 n c) + ∑ e ∈ landsOn idx N n, upd (ix2 e c) := by
  unfold Host.scatterAdd
  rw [Ideal.hostScatterAdd_def]
  unfold Ideal.hostScatterAdd
  congr 1
  rw [Finset.sum_filter, sum_idx2]
  unfold landsOn
  rw [Finset.sum_filter]
  refine Finset.sum_congr rfl (fun e _ => ?_)
  simp only [resultIdx?_rows]
  by_cases hP : (idx (ix2 e (0 : Fin 1))).toInt = (n.val : Int)
  · simp [hP]
  · simp [hP]

end Scatter

end Cert.Lib.RowScatter

end
-- ==== Proof.Bridge.lean ====
/-
  The two programs compute one function of the arguments.

  Both gather the same rows through the same index column, multiply them by the same nine matrices — the kernel's nine
  block products against the reference's one batched product, entry by entry one sum over 64 terms —, and scatter-add
  the rows of the products through the same index column into zero; the kernel's narrowing of the features and weights
  changes nothing at the ideal instance. Adding the bias row gives ONE array `B` on both sides.

  From `B` the reference normalises by centring (the mean of the squared deviations) and the kernel by the two column
  moments it accumulated, folded into one scale and one shift per column. These are the two spellings of the batch
  normalisation law, and they agree when every entry of `B`, `γ`, `β` is a real. That is what the precondition gives:
  a gathered entry is an entry of the features, a product entry a sum of 64 products of reals, a scattered entry zero
  plus a finite sum of product entries, and `B` that plus a bias entry.
-/
import proofs.«171181_j50354196578891_2_alg».proof.Proof.KValue
import proofs.«171181_j50354196578891_2_alg».proof.Proof.RefValue
import proofs.«171181_j50354196578891_2_alg».proof.Proof.Consts
import proofs.«171181_j50354196578891_2_alg».proof.Proof.LibRowScatter
import proofs.«171181_j50354196578891_2_alg».proof.Proof.LibRowForms
import proofs.«171181_j50354196578891_2_alg».proof.Proof.LibBnAffine

set_option maxRecDepth 16384

noncomputable section

open scoped BigOperators

namespace Cert.Bridge

open Cert.KernelIdeal Cert.KernelIdeal.Gen
open Idealize.ShloMosaic Idealize.ShloMosaic.ValueIdx
open Cert.ReferenceIdeal.Read (val_main_v6 val_main_v7 val_main_v8 val_main_v10 val_main_v16 val_main_v17 val_main_v19 val_main_v20 val_main_v47)

variable (a1 : FVec Ideal S200000x64 .f32) (a2 a3 : IVec S9x150000 32) (a4 : FVec Ideal S9x64x64 .f32)
  (a5 a6 a7 : FVec Ideal S64 .f32)

/-! ## One biased array on both sides -/

/-- The gathered rows: the narrowing is the identity, and the two index columns are one term. -/
theorem gathered_eq : KValue.gathered a1 a2 = val_main_v6 (F := Ideal) a1 a2 := rfl

/-- The nine block products are the batched product, entry by entry. -/
theorem contrib_eq :
    Region0.G (KValue.gathered a1 a2) (KValue.narrowW a4) = val_main_v7 (F := Ideal) a1 a2 a4 := by
  funext i
  rw [Cert.ReferenceIdeal.Read.val_main_v7_apply, ← gathered_eq]
  rfl

/-- The scattered outputs. -/
theorem out_eq : KValue.kOut a1 a2 a3 a4 = val_main_v17 (F := Ideal) a1 a2 a3 a4 := by
  unfold KValue.kOut
  rw [contrib_eq]
  rfl

/-- The bias row at column `c`. -/
theorem bias_row (c : Fin 64) : KValue.kBias a5 (ix2 (0 : Fin 1) c) = a5 (ix1 c) := by
  unfold KValue.kBias
  exact Cert.Lib.RowForms.vecRow_apply a5 _ c

/-- THE BIASED ARRAY: the kernel's second region's first result is the reference's stage. -/
theorem biased_eq :
    Region1.biased (KValue.kOut a1 a2 a3 a4) (KValue.kBias a5) = val_main_v20 (F := Ideal) a1 a2 a3 a4 a5 := by
  funext i
  obtain ⟨r, c, rfl⟩ : ∃ (r : Fin 200000) (c : Fin 64), i = ix2 r c := ⟨i 0, i 1, eq_ix2 i⟩
  rw [Cert.ReferenceIdeal.Read.val_main_v20_apply, Cert.ReferenceIdeal.RefValue.bias_apply, ← out_eq, Ideal.addf_def]
  unfold Region1.biased
  show KValue.kOut a1 a2 a3 a4 (ix2 r c) + KValue.kBias a5 (ix2 (0 : Fin 1) c) = _
  rw [bias_row]

/-! ## Every entry of it is a real -/

/-- A finite sum of reals is a real. -/
theorem sum_real {ι : Type*} (s : Finset ι) (f : ι → EReal) (h : ∀ e ∈ s, ∃ r : ℝ, f e = (r : EReal)) :
    ∃ r : ℝ, ∑ e ∈ s, f e = (r : EReal) := by
  classical
  induction s using Finset.induction_on with
  | empty => exact ⟨0, by simp⟩
  | insert a s ha ih =>
    obtain ⟨r, hr⟩ := ih (fun e he => h e (Finset.mem_insert_of_mem he))
    obtain ⟨q, hq⟩ := h a (Finset.mem_insert_self a s)
    exact ⟨q + r, by rw [Finset.sum_insert ha, hr, hq, EReal.coe_add]⟩

variable (h1 : ∀ i, ∃ r : ℝ, (a1 i : EReal) = (r : EReal)) (h4 : ∀ i, ∃ r : ℝ, (a4 i : EReal) = (r : EReal))
  (h5 : ∀ i, ∃ r : ℝ, (a5 i : EReal) = (r : EReal))

include h1 h4 in
/-- A product entry: a sum of 64 products of a gathered feature and a weight. -/
theorem contrib_real (i : Cert.ReferenceIdeal.S9x150000x64.Idx) :
    ∃ r : ℝ, (val_main_v7 (F := Ideal) a1 a2 a4 i : EReal) = (r : EReal) := by
  rw [Cert.ReferenceIdeal.Read.val_main_v7_apply]
  refine sum_real _ _ fun k _ => ?_
  obtain ⟨p, hp⟩ : ∃ p : ℝ, (val_main_v6 (F := Ideal) a1 a2 (Cert.ReferenceIdeal.Read.lidx_main_v7 i k) : EReal) = (p : EReal) := h1 _
  obtain ⟨q, hq⟩ := h4 (Cert.ReferenceIdeal.Read.ridx_main_v7 i k)
  exact ⟨p * q, by rw [hp, hq, EReal.coe_mul]⟩

/-- A scattered entry read at `(n, c)`: the zero array's entry plus the sum of the product rows whose index is `n`. -/
theorem out_apply_sum (n : Fin 200000) (c : Fin 64) :
    (val_main_v17 (F := Ideal) a1 a2 a3 a4 (ix2 n c) : EReal)
      = val_main_v8 (F := Ideal) (ix2 n c)
        + ∑ e ∈ Cert.Lib.RowScatter.landsOn (val_main_v16 (F := Ideal) a3) 200000 n, val_main_v10 (F := Ideal) a1 a2 a4 (ix2 e c) :=
  Cert.Lib.RowScatter.scatterAdd_rows_apply
    Cert.ReferenceIdeal.Gen.scatter_S200000x64_S1350000x1_S1350000x64_1_0_0_1_wf
    (val_main_v8 (F := Ideal)) (val_main_v16 (F := Ideal) a3) (val_main_v10 (F := Ideal) a1 a2 a4) n c

include h1 h4 in
/-- A scattered entry: zero plus the finite sum of the product rows that land on its row. -/
theorem out_real (n : Fin 200000) (c : Fin 64) :
    ∃ r : ℝ, (val_main_v17 (F := Ideal) a1 a2 a3 a4 (ix2 n c) : EReal) = (r : EReal) := by
  rw [out_apply_sum]
  obtain ⟨s, hs⟩ := sum_real (Cert.Lib.RowScatter.landsOn (val_main_v16 (F := Ideal) a3) 200000 n)
    (fun e => val_main_v10 (F := Ideal) a1 a2 a4 (ix2 e c))
    (fun e _ => contrib_real a1 a2 a4 h1 h4 _)
  refine ⟨0 + s, ?_⟩
  rw [hs, EReal.coe_add]
  refine congrArg (· + (s : EReal)) ?_
  rw [Cert.ReferenceIdeal.Read.val_main_v8_apply, Cert.ReferenceIdeal.Read.val_main_cst_apply]
  exact Cert.Consts.ofBits_zero

include h1 h4 h5 in
/-- Every entry of the biased array is a real. -/
theorem biased_real (i : Cert.ReferenceIdeal.S200000x64.Idx) :
    ∃ r : ℝ, (val_main_v20 (F := Ideal) a1 a2 a3 a4 a5 i : EReal) = (r : EReal) := by
  obtain ⟨n, c, rfl⟩ : ∃ (n : Fin 200000) (c : Fin 64), i = ix2 n c := ⟨i 0, i 1, eq_ix2 i⟩
  rw [Cert.ReferenceIdeal.Read.val_main_v20_apply, Cert.ReferenceIdeal.RefValue.bias_apply, Ideal.addf_def]
  obtain ⟨p, hp⟩ := out_real a1 a2 a3 a4 h1 h4 n c
  obtain ⟨q, hq⟩ := h5 (ix1 c)
  exact ⟨p + q, by rw [hp, hq, EReal.coe_add]⟩

/-! ## The kernel's last region at an entry: the folded spelling -/

/-- The scale row at column `c`, from the two moment rows `S`, `Q`. -/
theorem scale_row (S Q : FVec Ideal S1x64 .f32) (g : FVec Ideal S64 .f32) (c : Fin 64) :
    shapeCast S1x64 (KValue.hScale S Q g) shapeCasts_S64_S1x64 (ix2 (0 : Fin 1) c)
      = Cert.Lib.BnAffine.scale (Ideal.ofBits .f32 0x48435000#32) (Ideal.ofBits .f32 0x3727C5AC#32) (fun c => S (ix2 (0 : Fin 1) c)) (fun c => Q (ix2 (0 : Fin 1) c)) g c := by
  rw [Cert.Lib.RowForms.vecRow_apply]
  unfold KValue.hScale KValue.hMean Cert.Lib.BnAffine.scale
  show g (ix1 c) * Ideal.rsqrt (Ideal.div (shapeCast S64 Q shapeCasts_S1x64_S64 (ix1 c)) (Ideal.ofBits .f32 0x48435000#32)
    - Ideal.div (shapeCast S64 S shapeCasts_S1x64_S64 (ix1 c)) (Ideal.ofBits .f32 0x48435000#32) * Ideal.div (shapeCast S64 S shapeCasts_S1x64_S64 (ix1 c)) (Ideal.ofBits .f32 0x48435000#32)
    + (Ideal.ofBits .f32 0x3727C5AC#32)) = _
  rw [Cert.Lib.RowForms.rowVec_apply, Cert.Lib.RowForms.rowVec_apply]

/-- The shift row at column `c`. -/
theorem shift_row (S Q : FVec Ideal S1x64 .f32) (g b : FVec Ideal S64 .f32) (c : Fin 64) :
    shapeCast S1x64 (KValue.hShift S Q g b) shapeCasts_S64_S1x64 (ix2 (0 : Fin 1) c)
      = Cert.Lib.BnAffine.shift (Ideal.ofBits .f32 0x48435000#32) (Ideal.ofBits .f32 0x3727C5AC#32) (fun c => S (ix2 (0 : Fin 1) c)) (fun c => Q (ix2 (0 : Fin 1) c)) g b c := by
  rw [Cert.Lib.RowForms.vecRow_apply]
  unfold KValue.hShift Cert.Lib.BnAffine.shift
  show b (ix1 c) - KValue.hMean S (ix1 c) * KValue.hScale S Q g (ix1 c) = _
  have hs := scale_row S Q g c
  rw [Cert.Lib.RowForms.vecRow_apply] at hs
  rw [hs]
  unfold KValue.hMean
  show b (ix1 c) - Ideal.div (shapeCast S64 S shapeCasts_S1x64_S64 (ix1 c)) (Ideal.ofBits .f32 0x48435000#32) * _ = _
  rw [Cert.Lib.RowForms.rowVec_apply]

/-- The kernel's result at entry `(n, c)`: the folded spelling over the biased array and its two column moments. -/
theorem kernel_apply (n : Fin 200000) (c : Fin 64) :
    KValue.kernelOut a1 a2 a3 a4 a5 a6 a7 (ix2 n c)
      = Cert.Lib.BnAffine.folded (Ideal.ofBits .f32 0x00000000#32) (Ideal.ofBits .f32 0x48435000#32) (Ideal.ofBits .f32 0x3727C5AC#32) (val_main_v20 (F := Ideal) a1 a2 a3 a4 a5)
          (fun c => Region1.colSum (KValue.kOut a1 a2 a3 a4) (KValue.kBias a5) (ix2 (0 : Fin 1) c))
          (fun c => Region1.colSumSq (KValue.kOut a1 a2 a3 a4) (KValue.kBias a5) (ix2 (0 : Fin 1) c)) a6 a7 n c := by
  unfold KValue.kernelOut Region2.G Cert.Lib.BnAffine.folded
  show max (Region1.biased (KValue.kOut a1 a2 a3 a4) (KValue.kBias a5) (ix2 n c)
      * shapeCast S1x64 (KValue.hScale _ _ a6) shapeCasts_S64_S1x64 (ix2 (0 : Fin 1) c)
      + shapeCast S1x64 (KValue.hShift _ _ a6 a7) shapeCasts_S64_S1x64 (ix2 (0 : Fin 1) c)) _ = _
  rw [scale_row, shift_row, biased_eq]

/-- The two moment rows are the column sums of the biased array and of its squares. -/
theorem moment_sum (c : Fin 64) :
    Region1.colSum (KValue.kOut a1 a2 a3 a4) (KValue.kBias a5) (ix2 (0 : Fin 1) c)
      = ∑ k : Fin 200000, val_main_v20 (F := Ideal) a1 a2 a3 a4 a5 (ix2 k c) := by
  rw [Region1.colSum_apply, biased_eq]

theorem moment_sumsq (c : Fin 64) :
    Region1.colSumSq (KValue.kOut a1 a2 a3 a4) (KValue.kBias a5) (ix2 (0 : Fin 1) c)
      = ∑ k : Fin 200000, val_main_v20 (F := Ideal) a1 a2 a3 a4 a5 (ix2 k c) * val_main_v20 (F := Ideal) a1 a2 a3 a4 a5 (ix2 k c) := by
  rw [Region1.colSumSq_apply, biased_eq]

/-! ## The two results are equal -/

variable (h6 : ∀ i, ∃ r : ℝ, (a6 i : EReal) = (r : EReal)) (h7 : ∀ i, ∃ r : ℝ, (a7 i : EReal) = (r : EReal))

include h1 h4 h5 h6 h7 in
/-- THE BRIDGE: on real inputs the kernel's result array is the reference's. -/
theorem result_eq : KValue.kernelOut a1 a2 a3 a4 a5 a6 a7 = val_main_v47 (F := Ideal) a1 a2 a3 a4 a5 a6 a7 := by
  funext i
  obtain ⟨n, c, rfl⟩ : ∃ (n : Fin 200000) (c : Fin 64), i = ix2 n c := ⟨i 0, i 1, eq_ix2 i⟩
  rw [Cert.ReferenceIdeal.RefValue.out_apply, kernel_apply]
  exact Cert.Lib.BnAffine.folded_eq_centred _ _ _ _ _ _ a6 a7 Cert.Consts.ofBits_zero (by decide) Cert.Consts.ofBits_rows
    Cert.Consts.ofBits_eps (biased_real a1 a2 a3 a4 a5 h1 h4 h5) h6 h7 (moment_sum a1 a2 a3 a4 a5) (moment_sumsq a1 a2 a3 a4 a5) n c

end Cert.Bridge

end
-- ==== Proof.LibFiniteEntry.lean ====
/-
  Reading a precondition's conjuncts back, at the ideal instance.

  A precondition over float arrays is printed as a conjunction of `jnp.all` tests, each an elementwise comparison
  reduced by `and` over every axis. Two tests are read back here, for an array of ANY shape:
  * `jnp.all(jnp.abs(x) < inf)` — every entry's absolute value below the word `0x7F800000`, which at the ideal
    instance is `⊤` — says every entry of `x` is a REAL (`all_real_of_all_abs_lt_inf`; one value:
    `real_of_hostAbsf_olt_inf`): an extended real is `⊥`, a real or `⊤`, and `max x (−x) < ⊤` excludes both ends.
  * `jnp.all(x != 0)` — every entry unequal to the word `0x00000000`, the ideal `0` — says no entry is zero
    (`all_ne_zero_of_all_une_zero`; one value: `ne_zero_of_une_zero`).
  The conjunction itself is an `and` of one-bit words: it is 1 exactly when both sides are (`andi_eq_one`).
-/
import Idealize.ShloMosaic.PureOps.Ideal.Laws
import Idealize.ShloMosaic.Lib.ReduceAll

noncomputable section

namespace ProofLib.Finite

open Idealize.ShloMosaic

/-- The f32 word of `+∞` denotes the top of the extended reals. -/
theorem ofBits_inf_f32 : Ideal.ofBits .f32 0x7F800000#32 = ⊤ := by simp [Ideal.ofBits, Ideal.ieee]

/-- An extended real whose absolute value `max x (−x)` is below `⊤` is a real. -/
theorem exists_real_of_abs_lt_top (x : EReal) (hlt : max x (-x) < ⊤) : ∃ r : ℝ, x = (r : EReal) := by
  have hx_top : x ≠ ⊤ := fun e => by rw [e] at hlt; simp at hlt
  have hx_bot : x ≠ ⊥ := fun e => by rw [e] at hlt; simp at hlt
  exact ⟨x.toReal, (EReal.coe_toReal hx_top hx_bot).symm⟩

/-- One value: the host's `|x| < +∞`, true, says `x` is a real. -/
theorem real_of_hostAbsf_olt_inf (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf_f32] at h'
  unfold Ideal.cmp at h'
  refine exists_real_of_abs_lt_top x ?_
  by_contra hn
  simp [hn] at h'

/-- One value: the host's `x != 0`, true, says `x` is not zero. -/
theorem ne_zero_of_une_zero (x : Ideal .f32)
    (h : FloatOps.cmpf .une x (FloatOps.ofBits (F := Ideal) .f32 0x00000000#32) = 1#1) : (x : EReal) ≠ 0 := by
  have h' : Ideal.cmp .une (x : EReal) (Ideal.ofBits .f32 0x00000000#32) = 1#1 := h
  rw [Ideal.ofBits_zero_f32] at h'
  unfold Ideal.cmp at h'
  intro hx
  simp [hx] at h'

variable {s t u : Shape} {axes : List (Fin s.rank)}

/-- `jnp.all(jnp.abs(x) < inf)`, true: every entry of `x` is a real. `bound` is the comparison's right operand, the
    `+∞` word at every index (a broadcast of the scalar constant). -/
theorem all_real_of_all_abs_lt_inf [Subsingleton t.Idx] (x bound : FVec Ideal s .f32)
    (hbound : ∀ i, bound i = FloatOps.ofBits (F := Ideal) .f32 0x7F800000#32)
    (init : u.Idx → BitVec 1) (h : s.ReducesTo axes t) (hu : 0 < u.numel) (j : t.Idx)
    (e : Host.reduce IntOp.andi (cmpf .olt (Host.absf x) bound) init h hu j = 1#1) (i : s.Idx) :
    ∃ r : ℝ, (x i : EReal) = (r : EReal) := by
  have hi : cmpf .olt (Host.absf x) bound i = 1#1 := Host.reduce_andi_all _ init h hu j e i
  refine real_of_hostAbsf_olt_inf (x i) ?_
  rw [← hbound i]
  exact hi

/-- `jnp.all(x != 0)`, true: no entry of `x` is zero. `zero` is the comparison's right operand, the zero word at every
    index. -/
theorem all_ne_zero_of_all_une_zero [Subsingleton t.Idx] (x zero : FVec Ideal s .f32)
    (hzero : ∀ i, zero i = FloatOps.ofBits (F := Ideal) .f32 0x00000000#32)
    (init : u.Idx → BitVec 1) (h : s.ReducesTo axes t) (hu : 0 < u.numel) (j : t.Idx)
    (e : Host.reduce IntOp.andi (cmpf .une x zero) init h hu j = 1#1) (i : s.Idx) : (x i : EReal) ≠ 0 := by
  have hi : cmpf .une x zero i = 1#1 := Host.reduce_andi_all _ init h hu j e i
  refine ne_zero_of_une_zero (x i) ?_
  rw [← hzero i]
  exact hi

/-- The conjunction of two one-bit flags is 1 exactly when both are. -/
theorem andi_eq_one (a b : BitVec 1) : a &&& b = 1#1 ↔ a = 1#1 ∧ b = 1#1 := by
  revert a b; decide

end ProofLib.Finite

end
-- ==== Proof.PreReal.lean ====
/-
  The precondition read back: every float input is an array of reals.

  The precondition is a conjunction of five tests `jnp.all(jnp.abs(x) < inf)`, one per float input: the features
  (200000 × 64), the weights (9 × 64 × 64) and three vectors of 64 entries. Each test compares every entry's
  absolute value with the word `0x7F800000`, which at the ideal instance is `⊤`, and reduces the flags by `and` over
  every axis; the five results are joined by `and`. A conjunction of one-bit flags is 1 exactly when both sides are,
  and a reduction by `and` that is 1 had a 1 at every index, so a true precondition says `max x (−x) < ⊤` at every
  entry of every float input: the entry is neither `⊤` nor `⊥`, hence a real.
-/
import proofs.«171181_j50354196578891_2_alg».proof.Pre_finite_inputs
import proofs.«171181_j50354196578891_2_alg».proof.Proof.Gen.Pre_finite_inputs
import proofs.«171181_j50354196578891_2_alg».proof.Proof.LibFiniteEntry
import Idealize.ShloMosaic.Lib.ReduceAll

noncomputable section

namespace Cert.PreReal

open Idealize.ShloMosaic Cert.Pre_finite_inputs

/-- A shape of rank zero has one index. -/
instance subsingleton_scalar_idx : Subsingleton S_.Idx := ⟨fun _ _ => funext fun d => d.elim0⟩

/-- THE PRECONDITION DECODED: when it holds, every entry of each of the five float inputs is a real. -/
theorem reals [Cert.Pre_finite_inputs.Facts] (a0 : IVec S200000x3 32) (a1 : FVec Ideal S200000x64 .f32)
    (a2 a3 : IVec S9x150000 32) (a4 : FVec Ideal S9x64x64 .f32) (a5 a6 a7 : FVec Ideal S64 .f32)
    (h : Cert.Pre_finite_inputs.fn (F := Ideal) a0 a1 a2 a3 a4 a5 a6 a7 = fun _ => 1#1) :
    (∀ i, ∃ r : ℝ, (a1 i : EReal) = (r : EReal)) ∧ (∀ i, ∃ r : ℝ, (a4 i : EReal) = r)
      ∧ (∀ i, ∃ r : ℝ, (a5 i : EReal) = r) ∧ (∀ i, ∃ r : ℝ, (a6 i : EReal) = r)
      ∧ (∀ i, ∃ r : ℝ, (a7 i : EReal) = r) := by
  -- the one entry of the rank-0 result, with the conjunction split into its five tests
  have e := congrFun h (fun d => d.elim0)
  unfold Cert.Pre_finite_inputs.fn Cert.Pre_finite_inputs.fn_part1 at e
  simp only [Idealize.ShloMosaic.andi, IntOp.andi_eq_one] at e
  obtain ⟨⟨⟨⟨e1, e4⟩, e5⟩, e6⟩, e7⟩ := e
  -- each test: the comparison's right operand is the `+∞` word at every index, and a true `all` is true everywhere
  exact ⟨ProofLib.Finite.all_real_of_all_abs_lt_inf a1 _ (fun _ => rfl) _ _ _ _ e1,
    ProofLib.Finite.all_real_of_all_abs_lt_inf a4 _ (fun _ => rfl) _ _ _ _ e4,
    ProofLib.Finite.all_real_of_all_abs_lt_inf a5 _ (fun _ => rfl) _ _ _ _ e5,
    ProofLib.Finite.all_real_of_all_abs_lt_inf a6 _ (fun _ => rfl) _ _ _ _ e6,
    ProofLib.Finite.all_real_of_all_abs_lt_inf a7 _ (fun _ => rfl) _ _ _ _ e7⟩

end Cert.PreReal

end
-- ==== Proof.lean ====
/-
  A sparse convolution by a rulebook, then training-mode batch normalisation, an affine map and a positive part:
  the kernel against its reference, over the extended reals.

  Both programs gather rows `feats[in_rows]` (nine offsets, 150000 rows each), multiply the rows of offset `k` by the
  `64 × 64` matrix `weight[k]`, scatter-add the products' rows into a zero `200000 × 64` array at `out_rows`, and add
  the bias: one array `B`. The reference then normalises each column by centring — mean `μ`, variance the mean of the
  squared deviations, `((B − μ) · rsqrt (var + ε)) · γ + β` — and takes the positive part. The kernel runs three regions:
  the nine products block by block; the bias together with the column sums `S` and the column sums of squares `Q`,
  accumulated over twenty blocks of rows; and, from a scale `γ · rsqrt (Q/N − (S/N)² + ε)` and a shift
  `β − (S/N) · scale` computed once per column on the host, the map `max (B · scale + shift, 0)`.

  Over the reals `Q/N − (S/N)² = (Σ (B − μ)²)/N` and `x·(γ·r) + (β − μ·(γ·r)) = ((x − μ)·r)·γ + β`, so the two results are
  equal wherever every entry is a real; with an infinite entry the identities fail, and that is where the precondition
  (every float input finite) is used: it makes every gathered entry, every product entry, every scattered sum and so
  every entry of `B` a real, the variance a non-negative real and, the epsilon being a positive real, its reciprocal
  square root a real. A change of float format is the identity at the ideal instance, a block product into a zero
  accumulator and the host's batched product are the same sums, and a sum taken block by block is the sum.

  The frames of the two kernel programs are the generated ones; the reference's frame is its generated run with the
  result forgotten; the idealization rewrote nothing, so there is nothing to preserve.
-/
import proofs.«171181_j50354196578891_2_alg».proof.Defs
import proofs.«171181_j50354196578891_2_alg».proof.Proof.Gen.Kernel
import proofs.«171181_j50354196578891_2_alg».proof.Proof.Gen.Kernel.Skeleton
import proofs.«171181_j50354196578891_2_alg».proof.Proof.Gen.Kernel.Launch
import proofs.«171181_j50354196578891_2_alg».proof.Proof.Gen.Kernel.Points
import proofs.«171181_j50354196578891_2_alg».proof.Proof.Gen.Kernel.Frame
import proofs.«171181_j50354196578891_2_alg».proof.Proof.Gen.KernelIdeal
import proofs.«171181_j50354196578891_2_alg».proof.Proof.Gen.KernelIdeal.Skeleton
import proofs.«171181_j50354196578891_2_alg».proof.Proof.Gen.KernelIdeal.Launch
import proofs.«171181_j50354196578891_2_alg».proof.Proof.Gen.KernelIdeal.Points
import proofs.«171181_j50354196578891_2_alg».proof.Proof.Gen.KernelIdeal.Frame
import proofs.«171181_j50354196578891_2_alg».proof.Proof.Gen.ReferenceIdeal
import proofs.«171181_j50354196578891_2_alg».proof.Proof.Gen.ReferenceIdeal.Run
import proofs.«171181_j50354196578891_2_alg».proof.Proof.Gen.ReferenceIdeal.Read
import proofs.«171181_j50354196578891_2_alg».proof.Proof.Gen.Pre_finite_inputs
import proofs.«171181_j50354196578891_2_alg».proof.Proof.KValue
import proofs.«171181_j50354196578891_2_alg».proof.Proof.Bridge
import proofs.«171181_j50354196578891_2_alg».proof.Proof.PreReal
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run, with what the result holds forgotten. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- At the ideal instance, from memories agreeing on the arguments, both programs run, the index argument they return
    is the one they were given, and the two result arrays are equal: the kernel's ends at its composed function of the
    arguments, the reference's at its composed stages of the same arguments, and on the real inputs the precondition
    gives these are one array. -/
theorem algebraic : Cert.algebraic_KernelIdeal_ReferenceIdeal := by
  intro m ρ m' ρ' hpre hagree
  refine ⟨fun c => m ((c.tc : Thread Cert.KernelIdeal.nD Cert.KernelIdeal.τ).loc Cert.KernelIdeal.main_arg0),
    fun c => Cert.KernelIdeal.KValue.kernelOut
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono (fun r h c => ⟨(h c).2.1, (h c).1, (h c).2⟩)
      (Cert.KernelIdeal.KValue.run m ρ)
  · refine (θ_run Cert.ReferenceIdeal.defs _ _).mono (fun r h c => ?_)
      (Cert.ReferenceIdeal.Value.run (F := Ideal) m' ρ')
    obtain ⟨e0, e1, e2, e3, e4, e5, e6, e7⟩ := hagree c
    refine ⟨(h c).1.trans e0, ?_, (h c).2.2⟩
    rw [(h c).2.1, Cert.ReferenceIdeal.Read.val_main_v47_eq, e1, e2, e3, e4, e5, e6, e7]
    obtain ⟨h1, h4, h5, h6, h7⟩ := Cert.PreReal.reals _ _ _ _ _ _ _ _ (hpre c)
    exact (Cert.Bridge.result_eq _ _ _ _ _ _ _ h1 h4 h5 h6 h7).symm

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
